-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : IVec S2x1600000 32) (main_arg1 : FVec F S100000x128 .f32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x40 : Shape := ⟨2, ![1, 40]⟩
abbrev S5000x40 : Shape := ⟨2, ![5000, 40]⟩

abbrev nBuf : Space → Nat
  | .hbm => 85
  | .vmem => 20
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000, .f32⟩
  | .hbm, ⟨47, _⟩ => ⟨S100000x1, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x40, .f32⟩
  | .hbm, ⟨83, _⟩ => ⟨S1x40, .f32⟩
  | .hbm, ⟨84, _⟩ => ⟨S40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x40, .f32⟩
  | .local _ .vmem, ⟨17, _⟩ => ⟨S1x40, .f32⟩
  | .local _ .vmem, ⟨18, _⟩ => ⟨S1x40, .f32⟩
  | .local _ .vmem, ⟨19, _⟩ => ⟨S1x40, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  inb_S128x40_S128x40_0_0 : ∀ a, (![0, 0] : Fin 2 → Nat) a + S128x40.size a ≤ S128x40.size a
  h_S128x40 : 0 < S128x40.numel
  broadcasts_S1x40_S5000x40 : S1x40.Broadcasts S5000x40
  reduces_S5000x40_S40 : S5000x40.Reduces [0] S40
  shapeCasts_S1x40_S40 : S1x40.ShapeCasts S40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v43) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x40.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 103
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S1600000x1, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S1600000x128, .f32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S40, .f32⟩
  | .hbm, ⟨100, _⟩ => ⟨S_, .f32⟩
  | .hbm, ⟨101, _⟩ => ⟨S40, .f32⟩
  | .hbm, ⟨102, _⟩ => ⟨S40, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S40_d0 : S100000x40.ReducesTo [0] S40
  h_S_ : 0 < S_.numel
  bcast_S_S40 : S_.BroadcastsInDim S40 (![] : Fin 0 → Fin S40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRegion0.lean ====
/- REGION 0 of @main (the first layer's pallas_call, pipeline 0), at a PARAMETER `V` for the TensorCore's buffer
   contents when the region is entered: each window's block at a grid point, what the body leaves in the output
   window's buffer as a function of the five input blocks, the body's triple, the pipeline's proof data and the body
   obligation. The body loads every input block whole, computes one value of the output block's shape and stores it
   over the whole output buffer; the two weight windows are fetched at the first point only and are found unchanged
   at every later one. -/
import proofs.«122011_j58411555225966_1_alg».proof.Proof.Gen.Kernel.Launch
import proofs.«122011_j58411555225966_1_alg».proof.Proof.Gen.Kernel.Skeleton
import proofs.«122011_j58411555225966_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks' long axis has 5000 coordinates: membership in such a rectangle is checked by a recursion that deep
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the pipeline does not
    fetch, the block index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the pipeline does not
    fetch, the block index has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the pipeline does not
    fetch, the block index has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the pipeline does not
    fetch, the block index has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the pipeline does not
    fetch, the block index has not moved, and the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

/-! ## What the body leaves in the output window's buffer -/

/-- Window 5's staging buffer after the body, from the input windows' blocks (`x0` the aggregated messages, `x1` the
    node features, `x2` the self weights, `x3` the layer's matrix, `x4` its bias row): its one store, of the layer's
    value on this tile of rows, over the whole buffer. -/
def out0_5 (x0 : Vec F S5000x128 .f32) (x1 : Vec F S5000x128 .f32) (x2 : Vec F S5000x1 .f32) (x3 : Vec F S128x128 .f32) (x4 : Vec F S1x128 .f32) : Vec F S5000x128 .f32 :=
  View.canon [⟨r0_0, k0_pay1 (View.ld x0 r0_0) (View.ld x2 r0_1) (View.ld x1 r0_0) (View.ld x3 r0_2) (View.ld x4 r0_3)⟩]

/-- The one store is of the whole buffer, so it covers it. -/
theorem cover0_5 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__layer1_kernel i arg1 harg1 arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
import proofs.«122011_j58411555225966_1_alg».proof.Proof.Gen.Kernel.Launch
import proofs.«122011_j58411555225966_1_alg».proof.Proof.Gen.Kernel.Skeleton
import proofs.«122011_j58411555225966_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second layer's launch (pipeline 1): the body case by case

The body branches twice on the grid coordinate: at the first point it clears the accumulator, at the last it
writes the scaled accumulator out. On a grid of 20 points that makes three cases: the first point (A), the points
in between (B), the last point (C). -/

/-- "This is the first grid point", as the body computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- "This is the last grid point", as the body computes it. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-- The input windows are never idle; the output window is idle exactly off the last point, where it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

set_option maxHeartbeats 4000000 in
/-- The body in case A: the pieces its stores leave in the accumulator, with the proof that on whole
    buffers holding the input blocks it runs to the continuation with the inputs as they were and those pieces written. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i)
    (x0 : Vec F S5000x128 .f32) (x1 : Vec F S5000x128 .f32) (x2 : Vec F S5000x1 .f32) (x3 : Vec F S128x40 .f32) (x4 : Vec F S1x40 .f32) :
    { LS0 : List (View.Piece (Elt F) S1x40 .f32) //
      ∀ (xi5 : Vec F S1x40 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__layer2_kernel i arg1 harg1 arg2 harg2 arg3 harg3 arg4 harg4 arg5 harg5 arg6 harg6 arg7 harg7) K } := by
  refine ⟨?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- The body in case B: the pieces its stores leave in the accumulator, with the proof that on whole
    buffers holding the input blocks it runs to the continuation with the inputs as they were and those pieces written. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i)
    (x0 : Vec F S5000x128 .f32) (x1 : Vec F S5000x128 .f32) (x2 : Vec F S5000x1 .f32) (x3 : Vec F S128x40 .f32) (x4 : Vec F S1x40 .f32) (xs0 : Vec F S1x40 .f32) :
    { LS0 : List (View.Piece (Elt F) S1x40 .f32) //
      ∀ (xi5 : Vec F S1x40 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__layer2_kernel i arg1 harg1 arg2 harg2 arg3 harg3 arg4 harg4 arg5 harg5 arg6 harg6 arg7 harg7) K } := by
  refine ⟨?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- The body in case C: the pieces its stores leave in the accumulator and in the output block, with the proof that on whole
    buffers holding the input blocks it runs to the continuation with the inputs as they were and those pieces written. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i)
    (x0 : Vec F S5000x128 .f32) (x1 : Vec F S5000x128 .f32) (x2 : Vec F S5000x1 .f32) (x3 : Vec F S128x40 .f32) (x4 : Vec F S1x40 .f32) (xs0 : Vec F S1x40 .f32) :
    Σ' (L5 : List (View.Piece (Elt F) S1x40 .f32)), { LS0 : List (View.Piece (Elt F) S1x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__layer2_kernel i arg1 harg1 arg2 harg2 arg3 harg3 arg4 harg4 arg5 harg5 arg6 harg6 arg7 harg7) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.KRegion1.lean ====
import proofs.«122011_j58411555225966_1_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second layer's launch: what the accumulator holds point by point, the proof data, the body obligation -/

/-- The current staging memref of each window at a point, and the accumulator's buffer. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x40 .f32 := win1_5.stage (cfg1.slots t 5)
abbrev hs1_5 (t : Fin cfg1.N) : (ms1_5 t).IsWhole := hstage1_5 ((cfg1.slots t 5).cast nbuf1_5)
abbrev scM1 : Memref sig .tc .vmem S1x40 .f32 := Memref.whole cc1_scratch0
abbrev VS1 : View sig .tc .vmem S1x40 .f32 := (scM1 : Memref sig .tc .vmem S1x40 .f32).view
abbrev VO1_5 : View sig .tc .vmem S1x40 .f32 := (Memref.whole cc1_stg5_0 : Memref sig .tc .vmem S1x40 .f32).view

/-- The scoped buffers this launch never touches (the first launch's staging buffers), each at some contents. -/
def Oth1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The launch's resting invariant: the accumulator at some contents, the untouched scoped buffers, the generator register. -/
theorem PhiA1_split (c : Dev nD) :
    (Pipeline.ΦA spec1 c : sProp 𝕄) ⊢ iprop((∃ d, owns (c : Thread nD τ) scM1 fullShare d) ∗ Oth1 (F := F) c ∗ (∃ r, prngReg c r)) := by
  unfold Pipeline.ΦA Oth1; rw [scopedRest1_eq]
  iintro ⟨⟨R0, R1, R2, R3, R4, R5, R6, R7, R8, R9, ⟨%f, HS⟩⟩, Hg⟩
  isplitl [HS]
  · iexists f; rw [owns_whole]; iexact HS
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

theorem PhiA1_join (c : Dev nD) :
    iprop((∃ d, owns (c : Thread nD τ) scM1 fullShare d) ∗ Oth1 (F := F) c ∗ (∃ r, prngReg c r)) ⊢ (Pipeline.ΦA spec1 c : sProp 𝕄) := by
  unfold Pipeline.ΦA Oth1; rw [scopedRest1_eq]; simp only [scM1, owns_whole]
  iintro ⟨⟨%d, HS⟩, ⟨R0, R1, R2, R3, R4, R5, R6, R7, R8, R9⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists d; iexact HS
  iexact Hg

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i) (x0 : Vec F S5000x128 .f32) (x1 : Vec F S5000x128 .f32) (x2 : Vec F S5000x1 .f32) (x3 : Vec F S128x40 .f32) (x4 : Vec F S1x40 .f32) (y : S1x40.Idx) :
    ∃ pc ∈ (kernelRun1_A c i arg1 harg1 arg2 harg2 arg3 harg3 arg4 harg4 arg5 harg5 arg6 harg6 arg7 harg7 hc0 hc1 x0 x1 x2 x3 x4).1, y ∈ pc.1.set :=
  View.cover_of_tiledL (kernelRun1_A c i arg1 harg1 arg2 harg2 arg3 harg3 arg4 harg4 arg5 harg5 arg6 harg6 arg7 harg7 hc0 hc1 x0 x1 x2 x3 x4).1 S1x40.size (by sl_kernel_rfl) y
/-- What the first point leaves in the accumulator. -/
def sout1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i) (x0 : Vec F S5000x128 .f32) (x1 : Vec F S5000x128 .f32) (x2 : Vec F S5000x1 .f32) (x3 : Vec F S128x40 .f32) (x4 : Vec F S1x40 .f32) : Vec F S1x40 .f32 :=
  VS1.read (Elt F) (VS1.writes (Elt F) VS1.junk (kernelRun1_A c i arg1 harg1 arg2 harg2 arg3 harg3 arg4 harg4 arg5 harg5 arg6 harg6 arg7 harg7 hc0 hc1 x0 x1 x2 x3 x4).1)

theorem scover1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i) (x0 : Vec F S5000x128 .f32) (x1 : Vec F S5000x128 .f32) (x2 : Vec F S5000x1 .f32) (x3 : Vec F S128x40 .f32) (x4 : Vec F S1x40 .f32) (xs0 : Vec F S1x40 .f32) (y : S1x40.Idx) :
    ∃ pc ∈ (kernelRun1_B c i arg1 harg1 arg2 harg2 arg3 harg3 arg4 harg4 arg5 harg5 arg6 harg6 arg7 harg7 hc0 hc1 x0 x1 x2 x3 x4 xs0).1, y ∈ pc.1.set :=
  View.cover_of_tiledL (kernelRun1_B c i arg1 harg1 arg2 harg2 arg3 harg3 arg4 harg4 arg5 harg5 arg6 harg6 arg7 harg7 hc0 hc1 x0 x1 x2 x3 x4 xs0).1 S1x40.size (by sl_kernel_rfl) y
/-- What a middle point leaves in the accumulator, from what the point before left. -/
def sout1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i) (x0 : Vec F S5000x128 .f32) (x1 : Vec F S5000x128 .f32) (x2 : Vec F S5000x1 .f32) (x3 : Vec F S128x40 .f32) (x4 : Vec F S1x40 .f32) (xs0 : Vec F S1x40 .f32) : Vec F S1x40 .f32 :=
  VS1.read (Elt F) (VS1.writes (Elt F) VS1.junk (kernelRun1_B c i arg1 harg1 arg2 harg2 arg3 harg3 arg4 harg4 arg5 harg5 arg6 harg6 arg7 harg7 hc0 hc1 x0 x1 x2 x3 x4 xs0).1)

theorem scover1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) (y : S1x40.Idx) :
    ∃ pc ∈ (kernelRun1_C c i arg1 harg1 arg2 harg2 arg3 harg3 arg4 harg4 arg5 harg5 arg6 harg6 arg7 harg7 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 hc0 hc1 x0 x1 x2 x3 x4 xs0).2.1 S1x40.size (by sl_kernel_rfl) y
/-- What the last point leaves in the accumulator. -/
def sout1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) : Vec F S1x40 .f32 :=
  VS1.read (Elt F) (VS1.writes (Elt F) VS1.junk (kernelRun1_C c i arg1 harg1 arg2 harg2 arg3 harg3 arg4 harg4 arg5 harg5 arg6 harg6 arg7 harg7 hc0 hc1 x0 x1 x2 x3 x4 xs0).2.1)
theorem cover1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) (y : S1x40.Idx) :
    ∃ pc ∈ (kernelRun1_C c i arg1 harg1 arg2 harg2 arg3 harg3 arg4 harg4 arg5 harg5 arg6 harg6 arg7 harg7 hc0 hc1 x0 x1 x2 x3 x4 xs0).1, y ∈ pc.1.set :=
  View.cover_of_tiledL (kernelRun1_C c i arg1 harg1 arg2 harg2 arg3 harg3 arg4 harg4 arg5 harg5 arg6 harg6 arg7 harg7 hc0 hc1 x0 x1 x2 x3 x4 xs0).1 S1x40.size (by sl_kernel_rfl) y
/-- What the last point leaves in the output block. -/
def out1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) : Vec F S1x40 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 x4 xs0).1)

/-! ## The accumulation -/

/-- What the accumulator holds after the body at position `n`: the first point's contents, then each point's from the
    one before. -/
def accAt (c : Dev nD) : (n : ℕ) → n < cfg1.N → Vec F S1x40 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    have h0 : ¬ (n + 1) % 20 = 0 := by have hN : n + 1 < 20 := lt_of_lt_of_eq hn (show cfg1.N = 20 from N_1); omega
    if h1 : (n + 1) % 20 = 19 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt c n (Nat.lt_of_succ_lt hn))

theorem accAt_A (c : Dev nD) (t : Fin cfg1.N) (h0 : t.val % 20 = 0) (h1 : ¬t.val % 20 = 19) :
    accAt V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (by exfalso; have hN : n + 1 < 20 := lt_of_lt_of_eq hn (show cfg1.N = 20 from N_1); (try dsimp only at h0); omega)

theorem accAt_B (c : Dev nD) (t : Fin cfg1.N) (h0 : ¬t.val % 20 = 0) (h1 : ¬t.val % 20 = 19) :
    accAt V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_C (c : Dev nD) (t : Fin cfg1.N) (h0 : ¬t.val % 20 = 0) (h1 : t.val % 20 = 19) :
    accAt V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the output block's buffer holds after the body at the last point (elsewhere the window is idle and this is not consulted). -/
def outAt (c : Dev nD) (n : ℕ) (hn : n < cfg1.N) : Vec F S1x40 .f32 :=
  if h : n % 20 = 19 ∧ ¬ n % 20 = 0 then
    out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) scM1 (Memref.isWhole_whole _) (fun h' => h.2 ((hcond1_0 ⟨n, hn⟩).mp h')) ((hcond1_1 ⟨n, hn⟩).mpr h.1) (iblk1 V c 0 ⟨n, hn⟩) (iblk1 V c 1 ⟨n, hn⟩) (iblk1 V c 2 ⟨n, hn⟩) (iblk1 V c 3 ⟨n, hn⟩) (iblk1 V c 4 ⟨n, hn⟩) (accAt V c (n - 1) (Nat.lt_of_le_of_lt (Nat.sub_le _ _) hn))
  else VO1_5.read (Elt F) VO1_5.junk

theorem outAt_C (c : Dev nD) (t : Fin cfg1.N) (h0 : ¬t.val % 20 = 0) (h1 : t.val % 20 = 19) :
    outAt V c t.val t.isLt = out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt V c (t.val - 1) (Nat.lt_of_le_of_lt (Nat.sub_le _ _) t.isLt)) :=
  dif_pos ⟨h1, h0⟩

/-- The invariant before position `n`: before the first point the resting one; afterwards the accumulator at what the
    point before left, the untouched scoped buffers, the generator register. -/
def PhiS1 (c : Dev nD) : (n : ℕ) → n ≤ cfg1.N → sProp 𝕄
  | 0, _ => Pipeline.ΦA spec1 c
  | n + 1, hn => iprop(owns (c : Thread nD τ) scM1 fullShare (accAt V c n hn) ∗ Oth1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt V c n hn) ∗ Oth1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt V c (n - 1) (by omega)) ∗ Oth1 (F := F) c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the point's position says which case it is in; the
    invariant hands the body the accumulator at what the point before left (at anything at the first point) and takes it
    back at this point's contents; the output block's buffer is handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 20 = 0
  · have h1 : ¬ t.val % 20 = 19 := by omega
    have hz : t.val = 0 := by omega
    rw [Dat.leavesExact_idle (dat1 V c) 5 t (idleAt1_5 t (fun h => h1 ((hcond1_1 t).mp h))) (noFlush1_5 t (fun h => h1 ((hcond1_1 t).mp h)))]
    rw [accAt_A V c t h0 h1]
    unfold sout1_A; (try dsimp only)
    rw [PhiS1_castSucc V c t, PhiS1_zero V c _ _ hz]
    · iintro ⟨HΦ, Ho, ⟨%d0, H0⟩, ⟨%d1, H1⟩, ⟨%d2, H2⟩, ⟨%d3, H3⟩, ⟨%d4, H4⟩, ⟨%d5, H5⟩⟩
      ihave HΦ' := (PhiA1_split (F := F) c) $$ HΦ
      icases HΦ' with ⟨HS0, HR, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0]
        · unfold owns; iexists _; isplitr
          swap; · iexact HS0
          ipureintro; exact View.read_writes_of_cover _ _ _ _ _ (scover1_A c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 20 = 19
    · rw [show (dat1 V c).leavesExact 5 t = owns (c : Thread nD τ) (ms1_5 t) fullShare ((dat1 V c).after 5 t) from by
        unfold Dat.leavesExact; rw [liveAt1_5 t ((hcond1_1 t).mpr h1)], after1_5]
      rw [accAt_C V c t h0 h1, outAt_C V c t h0 h1]
      unfold out1_C sout1_C; (try dsimp only)
      rw [PhiS1_castSucc V c t, PhiS1_pos V c _ _ hz]
      iintro ⟨⟨HS0, HR, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0]
        · unfold owns; iexists _; isplitr
          swap; · iexact HS0
          ipureintro; exact View.read_writes_of_cover _ _ _ _ _ (scover1_C c _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [accAt_B V c t h0 h1]
      unfold sout1_B; (try dsimp only)
      rw [PhiS1_castSucc V c t, PhiS1_pos V c _ _ hz]
      iintro ⟨⟨HS0, HR, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0]
        · unfold owns; iexists _; isplitr
          swap; · iexact HS0
          ipureintro; exact View.read_writes_of_cover _ _ _ _ _ (scover1_B c _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting one back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega)]
  iintro ⟨HS0, HR, Hg⟩
  iapply (PhiA1_join (F := F) c)
  isplitl [HS0]; · iexists _; iexact HS0
  isplitl [HR]; · iexact HR
  iexact Hg

end Cert.Kernel.Hand

end
-- ==== Proof.KRun.lean ====
import proofs.«122011_j58411555225966_1_alg».proof.Proof.KRegion0
import proofs.«122011_j58411555225966_1_alg».proof.Proof.KRegion1
import proofs.«122011_j58411555225966_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host stretches and the two launches, from the launch memory to the return

The contents of the unscoped buffers at each boundary are a fold through the program: a host stretch applies its
operations; a launch leaves its arrays at what its write-backs leave and every other buffer as it was. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- What the first launch is entered from, read at the TensorCore's references. -/
abbrev VE0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (VE0 m ρ) c).arrAt w cfg0.N
theorem W4_arr (c : Dev nD) (w : Fin cfg0.W) :
    W4 m ρ c (Proc.devRef .tc (Pipeline.arrRef spec0 w)) = (dat0 (VE0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev VX0 : (c : Dev nD) → (b : Ref sig .tc) → Buf (Elt F) ((c : Thread nD τ).loc b) := fun c b => W4 m ρ c b
theorem hF0 (c : Dev nD) (w : Fin cfg0.W) : (dat0 (VE0 m ρ) c).arrAt w cfg0.N = VX0 m ρ c (Pipeline.arrRef spec0 w) :=
  (W4_arr m ρ c w).symm
theorem hrest0 (c : Dev nD) : ∀ b, b ∉ Finset.univ.image (Pipeline.arrRef spec0) → VX0 m ρ c b = VE0 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
/-- What the second launch is entered from. -/
abbrev VE1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (VE1 m ρ) c).arrAt w cfg1.N
theorem W6_arr (c : Dev nD) (w : Fin cfg1.W) :
    W6 m ρ c (Proc.devRef .tc (Pipeline.arrRef spec1 w)) = (dat1 (VE1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev VX1 : (c : Dev nD) → (b : Ref sig .tc) → Buf (Elt F) ((c : Thread nD τ).loc b) := fun c b => W6 m ρ c b
theorem hF1 (c : Dev nD) (w : Fin cfg1.W) : (dat1 (VE1 m ρ) c).arrAt w cfg1.N = VX1 m ρ c (Pipeline.arrRef spec1 w) :=
  (W6_arr m ρ c w).symm
theorem hrest1 (c : Dev nD) : ∀ b, b ∉ Finset.univ.image (Pipeline.arrRef spec1) → VX1 m ρ c b = VE1 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)

/-! ### The arguments end as launched: no host operation and no launch writes one -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (r := main_arg0) (by decide)
    _ = W5 m ρ c (Proc.devRef .tc main_arg0) := W6_of_ne m ρ c main_arg0 (by decide)
    _ = W4 m ρ c (Proc.devRef .tc main_arg0) := StableHlo.after_of_writes_sub hostOps1 _ hostOps1_writes (r := main_arg0) (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (r := main_arg0) (by decide)
    _ = W1 m ρ c (Proc.devRef .tc main_arg0) := StableHlo.after_of_writes_sub hostOps0_1 _ hostOps0_1_writes (r := main_arg0) (by decide)
    _ = W0 m ρ c (Proc.devRef .tc main_arg0) := StableHlo.after_of_writes_sub hostOps0 _ hostOps0_writes (r := main_arg0) (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (r := main_arg1) (by decide)
    _ = W5 m ρ c (Proc.devRef .tc main_arg1) := W6_of_ne m ρ c main_arg1 (by decide)
    _ = W4 m ρ c (Proc.devRef .tc main_arg1) := StableHlo.after_of_writes_sub hostOps1 _ hostOps1_writes (r := main_arg1) (by decide)
    _ = W3 m ρ c (Proc.devRef .tc main_arg1) := (W4_arr m ρ c 1).trans (((dat0 (VE0 m ρ) c).arrAt_in 1 rfl _).trans (A_eq0 (VE0 m ρ) c 1))
    _ = W2 m ρ c (Proc.devRef .tc main_arg1) := StableHlo.after_of_writes_sub hostOps0_2 _ hostOps0_2_writes (r := main_arg1) (by decide)
    _ = W1 m ρ c (Proc.devRef .tc main_arg1) := StableHlo.after_of_writes_sub hostOps0_1 _ hostOps0_1_writes (r := main_arg1) (by decide)
    _ = W0 m ρ c (Proc.devRef .tc main_arg1) := StableHlo.after_of_writes_sub hostOps0 _ hostOps0_writes (r := main_arg1) (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (r := main_arg2) (by decide)
    _ = W5 m ρ c (Proc.devRef .tc main_arg2) := W6_of_ne m ρ c main_arg2 (by decide)
    _ = W4 m ρ c (Proc.devRef .tc main_arg2) := StableHlo.after_of_writes_sub hostOps1 _ hostOps1_writes (r := main_arg2) (by decide)
    _ = W3 m ρ c (Proc.devRef .tc main_arg2) := (W4_arr m ρ c 3).trans (((dat0 (VE0 m ρ) c).arrAt_in 3 rfl _).trans (A_eq0 (VE0 m ρ) c 3))
    _ = W2 m ρ c (Proc.devRef .tc main_arg2) := StableHlo.after_of_writes_sub hostOps0_2 _ hostOps0_2_writes (r := main_arg2) (by decide)
    _ = W1 m ρ c (Proc.devRef .tc main_arg2) := StableHlo.after_of_writes_sub hostOps0_1 _ hostOps0_1_writes (r := main_arg2) (by decide)
    _ = W0 m ρ c (Proc.devRef .tc main_arg2) := StableHlo.after_of_writes_sub hostOps0 _ hostOps0_writes (r := main_arg2) (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (r := main_arg3) (by decide)
    _ = W5 m ρ c (Proc.devRef .tc main_arg3) := W6_of_ne m ρ c main_arg3 (by decide)
    _ = W4 m ρ c (Proc.devRef .tc main_arg3) := StableHlo.after_of_writes_sub hostOps1 _ hostOps1_writes (r := main_arg3) (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (r := main_arg3) (by decide)
    _ = W1 m ρ c (Proc.devRef .tc main_arg3) := StableHlo.after_of_writes_sub hostOps0_1 _ hostOps0_1_writes (r := main_arg3) (by decide)
    _ = W0 m ρ c (Proc.devRef .tc main_arg3) := StableHlo.after_of_writes_sub hostOps0 _ hostOps0_writes (r := main_arg3) (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (r := main_arg4) (by decide)
    _ = W5 m ρ c (Proc.devRef .tc main_arg4) := (W6_arr m ρ c 3).trans (((dat1 (VE1 m ρ) c).arrAt_in 3 rfl _).trans (A_eq1 (VE1 m ρ) c 3))
    _ = W4 m ρ c (Proc.devRef .tc main_arg4) := StableHlo.after_of_writes_sub hostOps1 _ hostOps1_writes (r := main_arg4) (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (r := main_arg4) (by decide)
    _ = W1 m ρ c (Proc.devRef .tc main_arg4) := StableHlo.after_of_writes_sub hostOps0_1 _ hostOps0_1_writes (r := main_arg4) (by decide)
    _ = W0 m ρ c (Proc.devRef .tc main_arg4) := StableHlo.after_of_writes_sub hostOps0 _ hostOps0_writes (r := main_arg4) (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (r := main_arg5) (by decide)
    _ = W5 m ρ c (Proc.devRef .tc main_arg5) := W6_of_ne m ρ c main_arg5 (by decide)
    _ = W4 m ρ c (Proc.devRef .tc main_arg5) := StableHlo.after_of_writes_sub hostOps1 _ hostOps1_writes (r := main_arg5) (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (r := main_arg5) (by decide)
    _ = W1 m ρ c (Proc.devRef .tc main_arg5) := StableHlo.after_of_writes_sub hostOps0_1 _ hostOps0_1_writes (r := main_arg5) (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 over the thread state: entered from every unscoped buffer at the contents before it, left at the contents
    after it; its arrays split out of the unscoped buffers and put back at what the write-backs leave. -/
def reg0H : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (VE0 m ρ c) (VX0 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the contents
    after it; its arrays split out of the unscoped buffers and put back at what the write-backs leave. -/
def reg1H : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ LH lvH 1 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (VE1 m ρ) c).Φ 0 from rfl]
    iintro ⟨Hp, -, Hr⟩
    iapply (hin1 (VE1 m ρ) c)
    unfold Pipeline.ΦA
    isplitl [Hr]; · iexact Hr
    iexact Hp
  hout c := by
    rw [Pipeline.ownSems0_none, show (pdatsH m ρ 1 c).Φ (Fin.last _) = (dat1 (VE1 m ρ) c).Φ (Fin.last cfg1.N) from rfl]
    iintro HΦ
    ihave HA := (hout1 (VE1 m ρ) c) $$ HΦ
    unfold Pipeline.ΦA
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (VE1 m ρ c) (VX1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsH : List (Pipeline.Seg (pcfgs (F := F)) adm (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0H m ρ),
    .host (hsegH hostOps1 hostOps1_sub hostOps1_fresh (W4 m ρ)),
    .region (reg1H m ρ),
    .host (hsegH hostOps2 hostOps2_sub hostOps2_fresh (W6 m ρ)) ]
theorem main_runH (c : Dev nD) : main (F := F) c = Pipeline.Seg.run (segsH m ρ) := (main_chain c).trans (by chain_rfl)

set_option backward.isDefEq.respectTransparency.types false in
/-- Every weakly fair execution of the program from memory `m` terminates, nothing faulting, and every final memory
    holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ RH c)
        ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the program runs and its argument arrays end as launched; and its result buffer ends at the last boundary's contents. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
    ⟨h c _ (mem_ucH main_v61 (by decide)),
     (h c _ (mem_ucH main_arg0 (by decide))).trans (W7_main_arg0 m ρ c),
     (h c _ (mem_ucH main_arg1 (by decide))).trans (W7_main_arg1 m ρ c),
     (h c _ (mem_ucH main_arg2 (by decide))).trans (W7_main_arg2 m ρ c),
     (h c _ (mem_ucH main_arg3 (by decide))).trans (W7_main_arg3 m ρ c),
     (h c _ (mem_ucH main_arg4 (by decide))).trans (W7_main_arg4 m ρ c),
     (h c _ (mem_ucH main_arg5 (by decide))).trans (W7_main_arg5 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c => (h c).2) (run_result m ρ)

end Cert.Kernel.Hand

end
-- ==== Proof.KiRegion0.lean ====
/- REGION 0 of @main (the first layer's pallas_call, pipeline 0), at a PARAMETER `V` for the TensorCore's buffer
   contents when the region is entered: each window's block at a grid point, what the body leaves in the output
   window's buffer as a function of the five input blocks, the body's triple, the pipeline's proof data and the body
   obligation. The body loads every input block whole, computes one value of the output block's shape and stores it
   over the whole output buffer; the two weight windows are fetched at the first point only and are found unchanged
   at every later one. -/
import proofs.«122011_j58411555225966_1_alg».proof.Proof.Gen.KernelIdeal.Launch
import proofs.«122011_j58411555225966_1_alg».proof.Proof.Gen.KernelIdeal.Skeleton
import proofs.«122011_j58411555225966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks' long axis has 5000 coordinates: membership in such a rectangle is checked by a recursion that deep
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the pipeline does not
    fetch, the block index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the pipeline does not
    fetch, the block index has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the pipeline does not
    fetch, the block index has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the pipeline does not
    fetch, the block index has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the pipeline does not
    fetch, the block index has not moved, and the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

/-! ## What the body leaves in the output window's buffer -/

/-- Window 5's staging buffer after the body, from the input windows' blocks (`x0` the aggregated messages, `x1` the
    node features, `x2` the self weights, `x3` the layer's matrix, `x4` its bias row): its one store, of the layer's
    value on this tile of rows, over the whole buffer. -/
def out0_5 (x0 : Vec F S5000x128 .f32) (x1 : Vec F S5000x128 .f32) (x2 : Vec F S5000x1 .f32) (x3 : Vec F S128x128 .f32) (x4 : Vec F S1x128 .f32) : Vec F S5000x128 .f32 :=
  View.canon [⟨r0_0, k0_pay1 (View.ld x0 r0_0) (View.ld x2 r0_1) (View.ld x1 r0_0) (View.ld x3 r0_2) (View.ld x4 r0_3)⟩]

/-- The one store is of the whole buffer, so it covers it. -/
theorem cover0_5 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__layer1_kernel i arg1 harg1 arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1Runs.lean ====
import proofs.«122011_j58411555225966_1_alg».proof.Proof.Gen.KernelIdeal.Launch
import proofs.«122011_j58411555225966_1_alg».proof.Proof.Gen.KernelIdeal.Skeleton
import proofs.«122011_j58411555225966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The second layer's launch (pipeline 1): the body case by case

The body branches twice on the grid coordinate: at the first point it clears the accumulator, at the last it
writes the scaled accumulator out. On a grid of 20 points that makes three cases: the first point (A), the points
in between (B), the last point (C). -/

/-- "This is the first grid point", as the body computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- "This is the last grid point", as the body computes it. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-- The input windows are never idle; the output window is idle exactly off the last point, where it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

set_option maxHeartbeats 4000000 in
/-- The body in case A: the pieces its stores leave in the accumulator, with the proof that on whole
    buffers holding the input blocks it runs to the continuation with the inputs as they were and those pieces written. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i)
    (x0 : Vec F S5000x128 .f32) (x1 : Vec F S5000x128 .f32) (x2 : Vec F S5000x1 .f32) (x3 : Vec F S128x40 .f32) (x4 : Vec F S1x40 .f32) :
    { LS0 : List (View.Piece (Elt F) S1x40 .f32) //
      ∀ (xi5 : Vec F S1x40 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__layer2_kernel i arg1 harg1 arg2 harg2 arg3 harg3 arg4 harg4 arg5 harg5 arg6 harg6 arg7 harg7) K } := by
  refine ⟨?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- The body in case B: the pieces its stores leave in the accumulator, with the proof that on whole
    buffers holding the input blocks it runs to the continuation with the inputs as they were and those pieces written. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i)
    (x0 : Vec F S5000x128 .f32) (x1 : Vec F S5000x128 .f32) (x2 : Vec F S5000x1 .f32) (x3 : Vec F S128x40 .f32) (x4 : Vec F S1x40 .f32) (xs0 : Vec F S1x40 .f32) :
    { LS0 : List (View.Piece (Elt F) S1x40 .f32) //
      ∀ (xi5 : Vec F S1x40 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc1__layer2_kernel i arg1 harg1 arg2 harg2 arg3 harg3 arg4 harg4 arg5 harg5 arg6 harg6 arg7 harg7) K } := by
  refine ⟨?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- The body in case C: the pieces its stores leave in the accumulator and in the output block, with the proof that on whole
    buffers holding the input blocks it runs to the continuation with the inputs as they were and those pieces written. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i)
    (x0 : Vec F S5000x128 .f32) (x1 : Vec F S5000x128 .f32) (x2 : Vec F S5000x1 .f32) (x3 : Vec F S128x40 .f32) (x4 : Vec F S1x40 .f32) (xs0 : Vec F S1x40 .f32) :
    Σ' (L5 : List (View.Piece (Elt F) S1x40 .f32)), { LS0 : List (View.Piece (Elt F) S1x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__layer2_kernel i arg1 harg1 arg2 harg2 arg3 harg3 arg4 harg4 arg5 harg5 arg6 harg6 arg7 harg7) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KiRegion1.lean ====
import proofs.«122011_j58411555225966_1_alg».proof.Proof.KiRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The second layer's launch: what the accumulator holds point by point, the proof data, the body obligation -/

/-- The current staging memref of each window at a point, and the accumulator's buffer. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x40 .f32 := win1_5.stage (cfg1.slots t 5)
abbrev hs1_5 (t : Fin cfg1.N) : (ms1_5 t).IsWhole := hstage1_5 ((cfg1.slots t 5).cast nbuf1_5)
abbrev scM1 : Memref sig .tc .vmem S1x40 .f32 := Memref.whole cc1_scratch0
abbrev VS1 : View sig .tc .vmem S1x40 .f32 := (scM1 : Memref sig .tc .vmem S1x40 .f32).view
abbrev VO1_5 : View sig .tc .vmem S1x40 .f32 := (Memref.whole cc1_stg5_0 : Memref sig .tc .vmem S1x40 .f32).view

/-- The scoped buffers this launch never touches (the first launch's staging buffers), each at some contents. -/
def Oth1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The launch's resting invariant: the accumulator at some contents, the untouched scoped buffers, the generator register. -/
theorem PhiA1_split (c : Dev nD) :
    (Pipeline.ΦA spec1 c : sProp 𝕄) ⊢ iprop((∃ d, owns (c : Thread nD τ) scM1 fullShare d) ∗ Oth1 (F := F) c ∗ (∃ r, prngReg c r)) := by
  unfold Pipeline.ΦA Oth1; rw [scopedRest1_eq]
  iintro ⟨⟨R0, R1, R2, R3, R4, R5, R6, R7, R8, R9, ⟨%f, HS⟩⟩, Hg⟩
  isplitl [HS]
  · iexists f; rw [owns_whole]; iexact HS
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

theorem PhiA1_join (c : Dev nD) :
    iprop((∃ d, owns (c : Thread nD τ) scM1 fullShare d) ∗ Oth1 (F := F) c ∗ (∃ r, prngReg c r)) ⊢ (Pipeline.ΦA spec1 c : sProp 𝕄) := by
  unfold Pipeline.ΦA Oth1; rw [scopedRest1_eq]; simp only [scM1, owns_whole]
  iintro ⟨⟨%d, HS⟩, ⟨R0, R1, R2, R3, R4, R5, R6, R7, R8, R9⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists d; iexact HS
  iexact Hg

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i) (x0 : Vec F S5000x128 .f32) (x1 : Vec F S5000x128 .f32) (x2 : Vec F S5000x1 .f32) (x3 : Vec F S128x40 .f32) (x4 : Vec F S1x40 .f32) (y : S1x40.Idx) :
    ∃ pc ∈ (kernelRun1_A c i arg1 harg1 arg2 harg2 arg3 harg3 arg4 harg4 arg5 harg5 arg6 harg6 arg7 harg7 hc0 hc1 x0 x1 x2 x3 x4).1, y ∈ pc.1.set :=
  View.cover_of_tiledL (kernelRun1_A c i arg1 harg1 arg2 harg2 arg3 harg3 arg4 harg4 arg5 harg5 arg6 harg6 arg7 harg7 hc0 hc1 x0 x1 x2 x3 x4).1 S1x40.size (by sl_kernel_rfl) y
/-- What the first point leaves in the accumulator. -/
def sout1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i) (x0 : Vec F S5000x128 .f32) (x1 : Vec F S5000x128 .f32) (x2 : Vec F S5000x1 .f32) (x3 : Vec F S128x40 .f32) (x4 : Vec F S1x40 .f32) : Vec F S1x40 .f32 :=
  VS1.read (Elt F) (VS1.writes (Elt F) VS1.junk (kernelRun1_A c i arg1 harg1 arg2 harg2 arg3 harg3 arg4 harg4 arg5 harg5 arg6 harg6 arg7 harg7 hc0 hc1 x0 x1 x2 x3 x4).1)

theorem scover1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i) (x0 : Vec F S5000x128 .f32) (x1 : Vec F S5000x128 .f32) (x2 : Vec F S5000x1 .f32) (x3 : Vec F S128x40 .f32) (x4 : Vec F S1x40 .f32) (xs0 : Vec F S1x40 .f32) (y : S1x40.Idx) :
    ∃ pc ∈ (kernelRun1_B c i arg1 harg1 arg2 harg2 arg3 harg3 arg4 harg4 arg5 harg5 arg6 harg6 arg7 harg7 hc0 hc1 x0 x1 x2 x3 x4 xs0).1, y ∈ pc.1.set :=
  View.cover_of_tiledL (kernelRun1_B c i arg1 harg1 arg2 harg2 arg3 harg3 arg4 harg4 arg5 harg5 arg6 harg6 arg7 harg7 hc0 hc1 x0 x1 x2 x3 x4 xs0).1 S1x40.size (by sl_kernel_rfl) y
/-- What a middle point leaves in the accumulator, from what the point before left. -/
def sout1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i) (x0 : Vec F S5000x128 .f32) (x1 : Vec F S5000x128 .f32) (x2 : Vec F S5000x1 .f32) (x3 : Vec F S128x40 .f32) (x4 : Vec F S1x40 .f32) (xs0 : Vec F S1x40 .f32) : Vec F S1x40 .f32 :=
  VS1.read (Elt F) (VS1.writes (Elt F) VS1.junk (kernelRun1_B c i arg1 harg1 arg2 harg2 arg3 harg3 arg4 harg4 arg5 harg5 arg6 harg6 arg7 harg7 hc0 hc1 x0 x1 x2 x3 x4 xs0).1)

theorem scover1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) (y : S1x40.Idx) :
    ∃ pc ∈ (kernelRun1_C c i arg1 harg1 arg2 harg2 arg3 harg3 arg4 harg4 arg5 harg5 arg6 harg6 arg7 harg7 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 hc0 hc1 x0 x1 x2 x3 x4 xs0).2.1 S1x40.size (by sl_kernel_rfl) y
/-- What the last point leaves in the accumulator. -/
def sout1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) : Vec F S1x40 .f32 :=
  VS1.read (Elt F) (VS1.writes (Elt F) VS1.junk (kernelRun1_C c i arg1 harg1 arg2 harg2 arg3 harg3 arg4 harg4 arg5 harg5 arg6 harg6 arg7 harg7 hc0 hc1 x0 x1 x2 x3 x4 xs0).2.1)
theorem cover1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) (y : S1x40.Idx) :
    ∃ pc ∈ (kernelRun1_C c i arg1 harg1 arg2 harg2 arg3 harg3 arg4 harg4 arg5 harg5 arg6 harg6 arg7 harg7 hc0 hc1 x0 x1 x2 x3 x4 xs0).1, y ∈ pc.1.set :=
  View.cover_of_tiledL (kernelRun1_C c i arg1 harg1 arg2 harg2 arg3 harg3 arg4 harg4 arg5 harg5 arg6 harg6 arg7 harg7 hc0 hc1 x0 x1 x2 x3 x4 xs0).1 S1x40.size (by sl_kernel_rfl) y
/-- What the last point leaves in the output block. -/
def out1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) : Vec F S1x40 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 x4 xs0).1)

/-! ## The accumulation -/

/-- What the accumulator holds after the body at position `n`: the first point's contents, then each point's from the
    one before. -/
def accAt (c : Dev nD) : (n : ℕ) → n < cfg1.N → Vec F S1x40 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    have h0 : ¬ (n + 1) % 20 = 0 := by have hN : n + 1 < 20 := lt_of_lt_of_eq hn (show cfg1.N = 20 from N_1); omega
    if h1 : (n + 1) % 20 = 19 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt c n (Nat.lt_of_succ_lt hn))

theorem accAt_A (c : Dev nD) (t : Fin cfg1.N) (h0 : t.val % 20 = 0) (h1 : ¬t.val % 20 = 19) :
    accAt V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (by exfalso; have hN : n + 1 < 20 := lt_of_lt_of_eq hn (show cfg1.N = 20 from N_1); (try dsimp only at h0); omega)

theorem accAt_B (c : Dev nD) (t : Fin cfg1.N) (h0 : ¬t.val % 20 = 0) (h1 : ¬t.val % 20 = 19) :
    accAt V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_C (c : Dev nD) (t : Fin cfg1.N) (h0 : ¬t.val % 20 = 0) (h1 : t.val % 20 = 19) :
    accAt V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the output block's buffer holds after the body at the last point (elsewhere the window is idle and this is not consulted). -/
def outAt (c : Dev nD) (n : ℕ) (hn : n < cfg1.N) : Vec F S1x40 .f32 :=
  if h : n % 20 = 19 ∧ ¬ n % 20 = 0 then
    out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) scM1 (Memref.isWhole_whole _) (fun h' => h.2 ((hcond1_0 ⟨n, hn⟩).mp h')) ((hcond1_1 ⟨n, hn⟩).mpr h.1) (iblk1 V c 0 ⟨n, hn⟩) (iblk1 V c 1 ⟨n, hn⟩) (iblk1 V c 2 ⟨n, hn⟩) (iblk1 V c 3 ⟨n, hn⟩) (iblk1 V c 4 ⟨n, hn⟩) (accAt V c (n - 1) (Nat.lt_of_le_of_lt (Nat.sub_le _ _) hn))
  else VO1_5.read (Elt F) VO1_5.junk

theorem outAt_C (c : Dev nD) (t : Fin cfg1.N) (h0 : ¬t.val % 20 = 0) (h1 : t.val % 20 = 19) :
    outAt V c t.val t.isLt = out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (accAt V c (t.val - 1) (Nat.lt_of_le_of_lt (Nat.sub_le _ _) t.isLt)) :=
  dif_pos ⟨h1, h0⟩

/-- The invariant before position `n`: before the first point the resting one; afterwards the accumulator at what the
    point before left, the untouched scoped buffers, the generator register. -/
def PhiS1 (c : Dev nD) : (n : ℕ) → n ≤ cfg1.N → sProp 𝕄
  | 0, _ => Pipeline.ΦA spec1 c
  | n + 1, hn => iprop(owns (c : Thread nD τ) scM1 fullShare (accAt V c n hn) ∗ Oth1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt V c n hn) ∗ Oth1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt V c (n - 1) (by omega)) ∗ Oth1 (F := F) c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the point's position says which case it is in; the
    invariant hands the body the accumulator at what the point before left (at anything at the first point) and takes it
    back at this point's contents; the output block's buffer is handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 20 = 0
  · have h1 : ¬ t.val % 20 = 19 := by omega
    have hz : t.val = 0 := by omega
    rw [Dat.leavesExact_idle (dat1 V c) 5 t (idleAt1_5 t (fun h => h1 ((hcond1_1 t).mp h))) (noFlush1_5 t (fun h => h1 ((hcond1_1 t).mp h)))]
    rw [accAt_A V c t h0 h1]
    unfold sout1_A; (try dsimp only)
    rw [PhiS1_castSucc V c t, PhiS1_zero V c _ _ hz]
    · iintro ⟨HΦ, Ho, ⟨%d0, H0⟩, ⟨%d1, H1⟩, ⟨%d2, H2⟩, ⟨%d3, H3⟩, ⟨%d4, H4⟩, ⟨%d5, H5⟩⟩
      ihave HΦ' := (PhiA1_split (F := F) c) $$ HΦ
      icases HΦ' with ⟨HS0, HR, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0]
        · unfold owns; iexists _; isplitr
          swap; · iexact HS0
          ipureintro; exact View.read_writes_of_cover _ _ _ _ _ (scover1_A c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 20 = 19
    · rw [show (dat1 V c).leavesExact 5 t = owns (c : Thread nD τ) (ms1_5 t) fullShare ((dat1 V c).after 5 t) from by
        unfold Dat.leavesExact; rw [liveAt1_5 t ((hcond1_1 t).mpr h1)], after1_5]
      rw [accAt_C V c t h0 h1, outAt_C V c t h0 h1]
      unfold out1_C sout1_C; (try dsimp only)
      rw [PhiS1_castSucc V c t, PhiS1_pos V c _ _ hz]
      iintro ⟨⟨HS0, HR, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0]
        · unfold owns; iexists _; isplitr
          swap; · iexact HS0
          ipureintro; exact View.read_writes_of_cover _ _ _ _ _ (scover1_C c _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [accAt_B V c t h0 h1]
      unfold sout1_B; (try dsimp only)
      rw [PhiS1_castSucc V c t, PhiS1_pos V c _ _ hz]
      iintro ⟨⟨HS0, HR, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0]
        · unfold owns; iexists _; isplitr
          swap; · iexact HS0
          ipureintro; exact View.read_writes_of_cover _ _ _ _ _ (scover1_B c _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting one back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega)]
  iintro ⟨HS0, HR, Hg⟩
  iapply (PhiA1_join (F := F) c)
  isplitl [HS0]; · iexists _; iexact HS0
  isplitl [HR]; · iexact HR
  iexact Hg

end Cert.KernelIdeal.Hand

end
-- ==== Proof.KiRun.lean ====
import proofs.«122011_j58411555225966_1_alg».proof.Proof.KiRegion0
import proofs.«122011_j58411555225966_1_alg».proof.Proof.KiRegion1
import proofs.«122011_j58411555225966_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run of the whole program: host stretches and the two launches, from the launch memory to the return

The contents of the unscoped buffers at each boundary are a fold through the program: a host stretch applies its
operations; a launch leaves its arrays at what its write-backs leave and every other buffer as it was. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- What the first launch is entered from, read at the TensorCore's references. -/
abbrev VE0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (VE0 m ρ) c).arrAt w cfg0.N
theorem W4_arr (c : Dev nD) (w : Fin cfg0.W) :
    W4 m ρ c (Proc.devRef .tc (Pipeline.arrRef spec0 w)) = (dat0 (VE0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev VX0 : (c : Dev nD) → (b : Ref sig .tc) → Buf (Elt F) ((c : Thread nD τ).loc b) := fun c b => W4 m ρ c b
theorem hF0 (c : Dev nD) (w : Fin cfg0.W) : (dat0 (VE0 m ρ) c).arrAt w cfg0.N = VX0 m ρ c (Pipeline.arrRef spec0 w) :=
  (W4_arr m ρ c w).symm
theorem hrest0 (c : Dev nD) : ∀ b, b ∉ Finset.univ.image (Pipeline.arrRef spec0) → VX0 m ρ c b = VE0 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
/-- What the second launch is entered from. -/
abbrev VE1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (VE1 m ρ) c).arrAt w cfg1.N
theorem W6_arr (c : Dev nD) (w : Fin cfg1.W) :
    W6 m ρ c (Proc.devRef .tc (Pipeline.arrRef spec1 w)) = (dat1 (VE1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev VX1 : (c : Dev nD) → (b : Ref sig .tc) → Buf (Elt F) ((c : Thread nD τ).loc b) := fun c b => W6 m ρ c b
theorem hF1 (c : Dev nD) (w : Fin cfg1.W) : (dat1 (VE1 m ρ) c).arrAt w cfg1.N = VX1 m ρ c (Pipeline.arrRef spec1 w) :=
  (W6_arr m ρ c w).symm
theorem hrest1 (c : Dev nD) : ∀ b, b ∉ Finset.univ.image (Pipeline.arrRef spec1) → VX1 m ρ c b = VE1 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)

/-! ### The arguments end as launched: no host operation and no launch writes one -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (r := main_arg0) (by decide)
    _ = W5 m ρ c (Proc.devRef .tc main_arg0) := W6_of_ne m ρ c main_arg0 (by decide)
    _ = W4 m ρ c (Proc.devRef .tc main_arg0) := StableHlo.after_of_writes_sub hostOps1 _ hostOps1_writes (r := main_arg0) (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (r := main_arg0) (by decide)
    _ = W1 m ρ c (Proc.devRef .tc main_arg0) := StableHlo.after_of_writes_sub hostOps0_1 _ hostOps0_1_writes (r := main_arg0) (by decide)
    _ = W0 m ρ c (Proc.devRef .tc main_arg0) := StableHlo.after_of_writes_sub hostOps0 _ hostOps0_writes (r := main_arg0) (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (r := main_arg1) (by decide)
    _ = W5 m ρ c (Proc.devRef .tc main_arg1) := W6_of_ne m ρ c main_arg1 (by decide)
    _ = W4 m ρ c (Proc.devRef .tc main_arg1) := StableHlo.after_of_writes_sub hostOps1 _ hostOps1_writes (r := main_arg1) (by decide)
    _ = W3 m ρ c (Proc.devRef .tc main_arg1) := (W4_arr m ρ c 1).trans (((dat0 (VE0 m ρ) c).arrAt_in 1 rfl _).trans (A_eq0 (VE0 m ρ) c 1))
    _ = W2 m ρ c (Proc.devRef .tc main_arg1) := StableHlo.after_of_writes_sub hostOps0_2 _ hostOps0_2_writes (r := main_arg1) (by decide)
    _ = W1 m ρ c (Proc.devRef .tc main_arg1) := StableHlo.after_of_writes_sub hostOps0_1 _ hostOps0_1_writes (r := main_arg1) (by decide)
    _ = W0 m ρ c (Proc.devRef .tc main_arg1) := StableHlo.after_of_writes_sub hostOps0 _ hostOps0_writes (r := main_arg1) (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (r := main_arg2) (by decide)
    _ = W5 m ρ c (Proc.devRef .tc main_arg2) := W6_of_ne m ρ c main_arg2 (by decide)
    _ = W4 m ρ c (Proc.devRef .tc main_arg2) := StableHlo.after_of_writes_sub hostOps1 _ hostOps1_writes (r := main_arg2) (by decide)
    _ = W3 m ρ c (Proc.devRef .tc main_arg2) := (W4_arr m ρ c 3).trans (((dat0 (VE0 m ρ) c).arrAt_in 3 rfl _).trans (A_eq0 (VE0 m ρ) c 3))
    _ = W2 m ρ c (Proc.devRef .tc main_arg2) := StableHlo.after_of_writes_sub hostOps0_2 _ hostOps0_2_writes (r := main_arg2) (by decide)
    _ = W1 m ρ c (Proc.devRef .tc main_arg2) := StableHlo.after_of_writes_sub hostOps0_1 _ hostOps0_1_writes (r := main_arg2) (by decide)
    _ = W0 m ρ c (Proc.devRef .tc main_arg2) := StableHlo.after_of_writes_sub hostOps0 _ hostOps0_writes (r := main_arg2) (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (r := main_arg3) (by decide)
    _ = W5 m ρ c (Proc.devRef .tc main_arg3) := W6_of_ne m ρ c main_arg3 (by decide)
    _ = W4 m ρ c (Proc.devRef .tc main_arg3) := StableHlo.after_of_writes_sub hostOps1 _ hostOps1_writes (r := main_arg3) (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (r := main_arg3) (by decide)
    _ = W1 m ρ c (Proc.devRef .tc main_arg3) := StableHlo.after_of_writes_sub hostOps0_1 _ hostOps0_1_writes (r := main_arg3) (by decide)
    _ = W0 m ρ c (Proc.devRef .tc main_arg3) := StableHlo.after_of_writes_sub hostOps0 _ hostOps0_writes (r := main_arg3) (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (r := main_arg4) (by decide)
    _ = W5 m ρ c (Proc.devRef .tc main_arg4) := (W6_arr m ρ c 3).trans (((dat1 (VE1 m ρ) c).arrAt_in 3 rfl _).trans (A_eq1 (VE1 m ρ) c 3))
    _ = W4 m ρ c (Proc.devRef .tc main_arg4) := StableHlo.after_of_writes_sub hostOps1 _ hostOps1_writes (r := main_arg4) (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (r := main_arg4) (by decide)
    _ = W1 m ρ c (Proc.devRef .tc main_arg4) := StableHlo.after_of_writes_sub hostOps0_1 _ hostOps0_1_writes (r := main_arg4) (by decide)
    _ = W0 m ρ c (Proc.devRef .tc main_arg4) := StableHlo.after_of_writes_sub hostOps0 _ hostOps0_writes (r := main_arg4) (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (r := main_arg5) (by decide)
    _ = W5 m ρ c (Proc.devRef .tc main_arg5) := W6_of_ne m ρ c main_arg5 (by decide)
    _ = W4 m ρ c (Proc.devRef .tc main_arg5) := StableHlo.after_of_writes_sub hostOps1 _ hostOps1_writes (r := main_arg5) (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (r := main_arg5) (by decide)
    _ = W1 m ρ c (Proc.devRef .tc main_arg5) := StableHlo.after_of_writes_sub hostOps0_1 _ hostOps0_1_writes (r := main_arg5) (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 over the thread state: entered from every unscoped buffer at the contents before it, left at the contents
    after it; its arrays split out of the unscoped buffers and put back at what the write-backs leave. -/
def reg0H : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (VE0 m ρ c) (VX0 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the contents
    after it; its arrays split out of the unscoped buffers and put back at what the write-backs leave. -/
def reg1H : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ LH lvH 1 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (VE1 m ρ) c).Φ 0 from rfl]
    iintro ⟨Hp, -, Hr⟩
    iapply (hin1 (VE1 m ρ) c)
    unfold Pipeline.ΦA
    isplitl [Hr]; · iexact Hr
    iexact Hp
  hout c := by
    rw [Pipeline.ownSems0_none, show (pdatsH m ρ 1 c).Φ (Fin.last _) = (dat1 (VE1 m ρ) c).Φ (Fin.last cfg1.N) from rfl]
    iintro HΦ
    ihave HA := (hout1 (VE1 m ρ) c) $$ HΦ
    unfold Pipeline.ΦA
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (VE1 m ρ c) (VX1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsH : List (Pipeline.Seg (pcfgs (F := F)) adm (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0H m ρ),
    .host (hsegH hostOps1 hostOps1_sub hostOps1_fresh (W4 m ρ)),
    .region (reg1H m ρ),
    .host (hsegH hostOps2 hostOps2_sub hostOps2_fresh (W6 m ρ)) ]
theorem main_runH (c : Dev nD) : main (F := F) c = Pipeline.Seg.run (segsH m ρ) := (main_chain c).trans (by chain_rfl)

set_option backward.isDefEq.respectTransparency.types false in
/-- Every weakly fair execution of the program from memory `m` terminates, nothing faulting, and every final memory
    holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ RH c)
        ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the program runs and its argument arrays end as launched; and its result buffer ends at the last boundary's contents. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
    ⟨h c _ (mem_ucH main_v61 (by decide)),
     (h c _ (mem_ucH main_arg0 (by decide))).trans (W7_main_arg0 m ρ c),
     (h c _ (mem_ucH main_arg1 (by decide))).trans (W7_main_arg1 m ρ c),
     (h c _ (mem_ucH main_arg2 (by decide))).trans (W7_main_arg2 m ρ c),
     (h c _ (mem_ucH main_arg3 (by decide))).trans (W7_main_arg3 m ρ c),
     (h c _ (mem_ucH main_arg4 (by decide))).trans (W7_main_arg4 m ρ c),
     (h c _ (mem_ucH main_arg5 (by decide))).trans (W7_main_arg5 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c => (h c).2) (run_result m ρ)

end Cert.KernelIdeal.Hand

end
-- ==== Proof.Spec.lean ====
/-
  The function both programs compute, on the extended reals, index by index.

  A two-layer graph convolution followed by the mean over the nodes.  The message-passing operator `msg` (gather the
  rows of a table along the edges, scale each by its edge weight, add them up per target node) is the same host
  computation in both programs and stays a parameter; so does the per-node self weight `sw`.  With `x` the node
  features:
    hidden (i, q) = max (∑ k, (msg x (i, k) + sw i · x (i, k)) · W1 (k, q) + b1 q) 0
    logit  (i, j) = ∑ k, (msg hidden (i, k) + sw i · hidden (i, k)) · W2 (k, j) + b2 j
    result j      = (∑ i, logit (i, j)) · (1 / 100000).
-/
import Idealize.ShloMosaic.PureOps.Ideal
import Idealize.ShloMosaic.Lib.ValueIdx

noncomputable section

open scoped BigOperators

namespace Cert.Spec

open Idealize.ShloMosaic Idealize.ShloMosaic.ValueIdx

/-- A table with one row of 128 extended reals per node. -/
abbrev Table : Type := (⟨2, ![100000, 128]⟩ : Shape).Idx → EReal

/-- The first layer at node `i`, feature `q`: aggregate, project through `W1`, add the bias, clamp at zero. -/
def hiddenAt (msg : Table → Table) (sw : Fin 100000 → EReal) (x : Table)
    (W1 : (⟨2, ![128, 128]⟩ : Shape).Idx → EReal) (b1 : Fin 128 → EReal) (i : Fin 100000) (q : Fin 128) : EReal :=
  max ((∑ k : Fin 128, (msg x (ix2 i k) + sw i * x (ix2 i k)) * W1 (ix2 k q)) + b1 q) 0

/-- The first layer as a table. -/
def hidden (msg : Table → Table) (sw : Fin 100000 → EReal) (x : Table)
    (W1 : (⟨2, ![128, 128]⟩ : Shape).Idx → EReal) (b1 : Fin 128 → EReal) : Table :=
  fun j => hiddenAt msg sw x W1 b1 (j 0) (j 1)

/-- The second layer at node `i`, class `j`, from a table `h` of hidden features. -/
def logitAt (msg : Table → Table) (sw : Fin 100000 → EReal) (h : Table)
    (W2 : (⟨2, ![128, 40]⟩ : Shape).Idx → EReal) (b2 : Fin 40 → EReal) (i : Fin 100000) (j : Fin 40) : EReal :=
  (∑ k : Fin 128, (msg h (ix2 i k) + sw i * h (ix2 i k)) * W2 (ix2 k j)) + b2 j

/-- The mean over the nodes of the second layer's output, class by class. -/
def result (msg : Table → Table) (sw : Fin 100000 → EReal) (x : Table)
    (W1 : (⟨2, ![128, 128]⟩ : Shape).Idx → EReal) (b1 : Fin 128 → EReal)
    (W2 : (⟨2, ![128, 40]⟩ : Shape).Idx → EReal) (b2 : Fin 40 → EReal) : (⟨1, ![40]⟩ : Shape).Idx → EReal :=
  fun j => (∑ i : Fin 100000, logitAt msg sw (hidden msg sw x W1 b1) W2 b2 i (j 0)) * ((1 / 100000 : ℝ) : EReal)

theorem hidden_apply (msg : Table → Table) (sw : Fin 100000 → EReal) (x : Table)
    (W1 : (⟨2, ![128, 128]⟩ : Shape).Idx → EReal) (b1 : Fin 128 → EReal) (i : Fin 100000) (q : Fin 128) :
    hidden msg sw x W1 b1 (ix2 i q) = hiddenAt msg sw x W1 b1 i q := rfl

end Cert.Spec

end
-- ==== Proof.HostOps.lean ====
/-
  The two host computations the kernel's program and the reference share, as functions of the edge array.

  Both programs normalise the adjacency matrix on the host, before any layer runs: from the edge array (row 0 the
  target nodes, row 1 the source nodes) they count each node's edges, add one for the self loop, take the inverse
  square root `d` of that degree (zero where the degree is not positive), and give edge (r, c) the weight `d r · d c` and
  node `i` the self weight `d i · d i`.  A layer then gathers the rows of a table along the source nodes, scales each by
  its edge weight and adds them up per target node.

  `msgOp a0` is that last operator on tables (gather, scale, scatter-add into zeros) and `selfW a0` the self weights,
  each spelt operation by operation exactly as the reference's composed term spells it, so that a term of either
  program that contains one of them is it by unfolding alone.  Nothing here evaluates them: to every proof they are
  an unknown operator on tables and an unknown vector.
-/
import proofs.«122011_j58411555225966_1_alg».proof.ReferenceIdeal
import proofs.«122011_j58411555225966_1_alg».proof.Proof.Spec
import Idealize.ShloMosaic.PureOps.Ideal
import Idealize.ShloMosaic.Lib.ValueIdx

noncomputable section

namespace Cert.HostOps

open Cert.ReferenceIdeal Cert.ReferenceIdeal.Facts₀ Idealize.ShloMosaic Idealize.ShloMosaic.ValueIdx

variable [Cert.ReferenceIdeal.Facts₀]

set_option maxRecDepth 8192 in
/-- The self weights as a vector over the nodes: `d · d`, with `d` the inverse square root of one plus the number of
    edges into the node, and zero where that degree is not positive. -/
def selfVec (a0 : (⟨S2x1600000, .i32⟩ : BufTy).Contents (Elt Ideal)) : FVec Ideal S100000 .f32 :=
  mulf (F := Ideal) (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))) (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32))))

set_option maxRecDepth 8192 in
/-- The self weight of node `i`. -/
def selfW (a0 : (⟨S2x1600000, .i32⟩ : BufTy).Contents (Elt Ideal)) : Fin 100000 → EReal :=
  fun i => (mulf (F := Ideal) (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))) (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32))))) (ix1 i)

/-- The self weight of node `i` is the self-weight vector there. -/
theorem selfW_eq (a0 : (⟨S2x1600000, .i32⟩ : BufTy).Contents (Elt Ideal)) (i : Fin 100000) :
    selfW a0 i = selfVec a0 (ix1 i) := rfl

set_option maxRecDepth 8192 in
/-- The message-passing operator on tables: gather the rows of `x` along the edges' source nodes, scale row `e` by the
    weight of edge `e`, and add the rows up per target node, starting from zero. -/
def msgOp (a0 : (⟨S2x1600000, .i32⟩ : BufTy).Contents (Elt Ideal)) : Cert.Spec.Table → Cert.Spec.Table :=
  fun x => Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (mulf (F := Ideal) (broadcastInDim S1600000x128 ![0, 1] bcast_S1600000x1_S1600000x128_0_1 (broadcastInDim S1600000x1 ![0] bcast_S1600000_S1600000x1_0 (mulf (F := Ideal) (Host.gather gather_S100000_S1600000x1_S1600000_n_0_n_n_0_1_1 (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))) (broadcastInDim S1600000x1 ![0] bcast_S1600000_S1600000x1_0 (select (cmpi .slt (shapeCast _ (extractStridedSlice S1x1600000 ![0, 0] a0 slices_S2x1600000_S1x1600000_0_0) shapeCasts_S1x1600000_S1600000) (broadcastInDim S1600000 ![] bcast_S_S1600000 (constantI S_ 32 0#32))) (addi (shapeCast _ (extractStridedSlice S1x1600000 ![0, 0] a0 slices_S2x1600000_S1x1600000_0_0) shapeCasts_S1x1600000_S1600000) (broadcastInDim S1600000 ![] bcast_S_S1600000 (constantI S_ 32 100000#32))) (shapeCast _ (extractStridedSlice S1x1600000 ![0, 0] a0 slices_S2x1600000_S1x1600000_0_0) shapeCasts_S1x1600000_S1600000)))) (Host.gather gather_S100000_S1600000x1_S1600000_n_0_n_n_0_1_1 (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))) (broadcastInDim S1600000x1 ![0] bcast_S1600000_S1600000x1_0 (select (cmpi .slt (shapeCast _ (extractStridedSlice S1x1600000 ![1, 0] a0 slices_S2x1600000_S1x1600000_1_0) shapeCasts_S1x1600000_S1600000) (broadcastInDim S1600000 ![] bcast_S_S1600000 (constantI S_ 32 0#32))) (addi (shapeCast _ (extractStridedSlice S1x1600000 ![1, 0] a0 slices_S2x1600000_S1x1600000_1_0) shapeCasts_S1x1600000_S1600000) (broadcastInDim S1600000 ![] bcast_S_S1600000 (constantI S_ 32 100000#32))) (shapeCast _ (extractStridedSlice S1x1600000 ![1, 0] a0 slices_S2x1600000_S1x1600000_1_0) shapeCasts_S1x1600000_S1600000))))))) (Host.gather gather_S100000x128_S1600000x1_S1600000x128_1_0_n_n_0_1_1128 x (broadcastInDim S1600000x1 ![0] bcast_S1600000_S1600000x1_0 (select (cmpi .slt (shapeCast _ (extractStridedSlice S1x1600000 ![1, 0] a0 slices_S2x1600000_S1x1600000_1_0) shapeCasts_S1x1600000_S1600000) (broadcastInDim S1600000 ![] bcast_S_S1600000 (constantI S_ 32 0#32))) (addi (shapeCast _ (extractStridedSlice S1x1600000 ![1, 0] a0 slices_S2x1600000_S1x1600000_1_0) shapeCasts_S1x1600000_S1600000) (broadcastInDim S1600000 ![] bcast_S_S1600000 (constantI S_ 32 100000#32))) (shapeCast _ (extractStridedSlice S1x1600000 ![1, 0] a0 slices_S2x1600000_S1x1600000_1_0) shapeCasts_S1x1600000_S1600000)))))

end Cert.HostOps

end
-- ==== Proof.RefSpec.lean ====
/-
  The reference's result, index by index, is the shared specification.

  The reference's composed term is two applications of one layer: aggregate the table (the message-passing operator
  plus the self weights times the table), multiply by the layer's weight matrix, add the bias broadcast along the
  nodes.  The first layer clamps at zero; the second is summed over the nodes and divided by 100000.  Each layer is
  named here as a function of an ARBITRARY operator on tables and an ARBITRARY self-weight vector, and read at an index
  there: a matrix product on the host is the sum over the contracted axis, the two nested broadcasts of a bias or of
  the self weights read the vector at one coordinate, a sum along the node axis from the zero word is the sum over the
  nodes, and division by the word of 100000 is multiplication by 1/100000.  The reference's term is then those two
  functions at the shared host operator and self weights, by unfolding alone, and the operator is never opened.
-/
import proofs.«122011_j58411555225966_1_alg».proof.Proof.RefRun
import proofs.«122011_j58411555225966_1_alg».proof.Proof.HostOps
import proofs.«122011_j58411555225966_1_alg».proof.Proof.Spec
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Gen Idealize.ShloMosaic Idealize.ShloMosaic.TcCoe Idealize.SL.Sem Idealize.ShloMosaic.StableHlo Idealize.ShloMosaic.ValueIdx

/-! ## The pointwise operations at an index -/

theorem addf_apply {s : Shape} (A B : FVec Ideal s .f32) (j : s.Idx) : addf A B j = A j + B j := rfl
theorem mulf_apply {s : Shape} (A B : FVec Ideal s .f32) (j : s.Idx) : mulf A B j = A j * B j := rfl
theorem maximumf_apply {s : Shape} (A B : FVec Ideal s .f32) (j : s.Idx) : maximumf A B j = max (A j) (B j) := rfl

/-- The zero word is the extended real `0`, at every index of the constant. -/
theorem zero_const_apply (k : S_.Idx) : (constant (F := Ideal) S_ .f32 0x00000000#32 : FVec Ideal S_ .f32) k = 0 :=
  Ideal.ofBits_zero_f32

/-- The word `0x47C35000` is the real number 100000: exponent field 143, fraction field 4411392, so
    (2^23 + 4411392) · 2^(143 - 127 - 23) = 12800000 / 128. -/
theorem ofBits_100000 : Ideal.ofBits .f32 0x47C35000#32 = ((100000 : ℝ) : EReal) := by
  simp [Ideal.ofBits, Ideal.ieee]
  rw [← EReal.coe_mul, EReal.coe_eq_coe_iff]
  norm_num

/-! ## The broadcasts at an index -/

/-- The zero table: the zero word broadcast to every node and feature. -/
theorem zeros_apply (j : S100000x128.Idx) :
    (broadcastInDim S100000x128 ![] bcast_S_S100000x128 (constant (F := Ideal) S_ .f32 0x00000000#32) : FVec Ideal S100000x128 .f32) j = 0 :=
  (broadcastInDim_apply _ bcast_S_S100000x128 _ j (fun a => a.elim0) (fun a => a.elim0)).trans (zero_const_apply _)

/-- A per-node vector broadcast along the features reads the vector at the node. -/
theorem bcastNode_apply (sv : FVec Ideal S100000 .f32) (i : Fin 100000) (k : Fin 128) :
    broadcastInDim S100000x128 ![0, 1] bcast_S100000x1_S100000x128_0_1 (broadcastInDim S100000x1 ![0] bcast_S100000_S100000x1_0 sv) (ix2 i k) = sv (ix1 i) :=
  (broadcastInDim_apply _ bcast_S100000x1_S100000x128_0_1 _ (ix2 i k) (ix2 i (0 : Fin 1)) (fun a => match a with
    | ⟨0, _⟩ => by show i.val = if (100000 : Nat) = 1 then 0 else i.val; rw [if_neg (by decide)]
    | ⟨1, _⟩ => by show 0 = if (1 : Nat) = 1 then 0 else k.val; rw [if_pos rfl])).trans
  (broadcastInDim_apply _ bcast_S100000_S100000x1_0 sv (ix2 i (0 : Fin 1)) (ix1 i) (fun a => match a with
    | ⟨0, _⟩ => by show i.val = if (100000 : Nat) = 1 then 0 else i.val; rw [if_neg (by decide)]))

/-- The first layer's bias broadcast along the nodes reads the bias at the feature. -/
theorem bcastBias128_apply (b : FVec Ideal S128 .f32) (i : Fin 100000) (q : Fin 128) :
    broadcastInDim S100000x128 ![0, 1] bcast_S1x128_S100000x128_0_1 (broadcastInDim S1x128 ![1] bcast_S128_S1x128_1 b) (ix2 i q) = b (ix1 q) :=
  (broadcastInDim_apply _ bcast_S1x128_S100000x128_0_1 _ (ix2 i q) (ix2 (0 : Fin 1) q) (fun a => match a with
    | ⟨0, _⟩ => by show 0 = if (1 : Nat) = 1 then 0 else i.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- The second layer's bias broadcast along the nodes reads the bias at the class. -/
theorem bcastBias40_apply (b : FVec Ideal S40 .f32) (i : Fin 100000) (q : Fin 40) :
    broadcastInDim S100000x40 ![0, 1] bcast_S1x40_S100000x40_0_1 (broadcastInDim S1x40 ![1] bcast_S40_S1x40_1 b) (ix2 i q) = b (ix1 q) :=
  (broadcastInDim_apply _ bcast_S1x40_S100000x40_0_1 _ (ix2 i q) (ix2 (0 : Fin 1) q) (fun a => match a with
    | ⟨0, _⟩ => by show 0 = if (1 : Nat) = 1 then 0 else i.val; rw [if_pos rfl]
    | ⟨1, _⟩ => by show q.val = if (40 : Nat) = 1 then 0 else q.val; rw [if_neg (by decide)])).trans
  (broadcastInDim_apply _ bcast_S40_S1x40_1 b (ix2 (0 : Fin 1) q) (ix1 q) (fun a => match a with
    | ⟨0, _⟩ => by show q.val = if (40 : Nat) = 1 then 0 else q.val; rw [if_neg (by decide)]))

/-! ## The matrix products at an index -/

theorem dot1_lhs0 (j : S100000x128.Idx) (p : dot_S100000x128_S128x128_S100000x128_1_0_0_1_n_n.contr.Idx) :
    (dot_S100000x128_S128x128_S100000x128_1_0_0_1_n_n.lhsIdx j p 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot1_lhs1 (j : S100000x128.Idx) (p : dot_S100000x128_S128x128_S100000x128_1_0_0_1_n_n.contr.Idx) :
    (dot_S100000x128_S128x128_S100000x128_1_0_0_1_n_n.lhsIdx j p 1).val = (p ⟨0, by decide⟩).val :=
  dot_S100000x128_S128x128_S100000x128_1_0_0_1_n_n.lhsIdx_val_of_single rfl j p
theorem dot1_rhs0 (j : S100000x128.Idx) (p : dot_S100000x128_S128x128_S100000x128_1_0_0_1_n_n.contr.Idx) :
    (dot_S100000x128_S128x128_S100000x128_1_0_0_1_n_n.rhsIdx j p 0).val = (p ⟨0, by decide⟩).val :=
  dot_S100000x128_S128x128_S100000x128_1_0_0_1_n_n.rhsIdx_val_of_single rfl j p
theorem dot1_rhs1 (j : S100000x128.Idx) (p : dot_S100000x128_S128x128_S100000x128_1_0_0_1_n_n.contr.Idx) :
    (dot_S100000x128_S128x128_S100000x128_1_0_0_1_n_n.rhsIdx j p 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The first layer's product on the host, read at node `i`, feature `q`: the sum over the contracted feature axis. -/
theorem dot1_apply (L : FVec Ideal S100000x128 .f32) (W : FVec Ideal S128x128 .f32) (i : Fin 100000) (q : Fin 128) :
    Host.dotGeneral dot_S100000x128_S128x128_S100000x128_1_0_0_1_n_n none L W (ix2 i q) = ∑ k : Fin 128, L (ix2 i k) * W (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i q) ((ValueIdx.contrEquiv1 dot_S100000x128_S128x128_S100000x128_1_0_0_1_n_n 128 rfl rfl).symm k) = ix2 i k := funext fun a => Fin.ext (by
    match a with
    | ⟨0, _⟩ => exact dot1_lhs0 _ _
    | ⟨1, _⟩ => exact (dot1_lhs1 _ _).trans hk)
  have er : dot_S100000x128_S128x128_S100000x128_1_0_0_1_n_n.rhsIdx (ix2 i q) ((ValueIdx.contrEquiv1 dot_S100000x128_S128x128_S100000x128_1_0_0_1_n_n 128 rfl rfl).symm k) = ix2 k q := funext fun a => Fin.ext (by
    match a with
    | ⟨0, _⟩ => exact (dot1_rhs0 _ _).trans hk
    | ⟨1, _⟩ => exact dot1_rhs1 _ _)
  rw [el, er]

theorem dot2_lhs0 (j : S100000x40.Idx) (p : dot_S100000x128_S128x40_S100000x40_1_0_0_1_n_n.contr.Idx) :
    (dot_S100000x128_S128x40_S100000x40_1_0_0_1_n_n.lhsIdx j p 0).val = (j 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem dot2_lhs1 (j : S100000x40.Idx) (p : dot_S100000x128_S128x40_S100000x40_1_0_0_1_n_n.contr.Idx) :
    (dot_S100000x128_S128x40_S100000x40_1_0_0_1_n_n.lhsIdx j p 1).val = (p ⟨0, by decide⟩).val :=
  dot_S100000x128_S128x40_S100000x40_1_0_0_1_n_n.lhsIdx_val_of_single rfl j p
theorem dot2_rhs0 (j : S100000x40.Idx) (p : dot_S100000x128_S128x40_S100000x40_1_0_0_1_n_n.contr.Idx) :
    (dot_S100000x128_S128x40_S100000x40_1_0_0_1_n_n.rhsIdx j p 0).val = (p ⟨0, by decide⟩).val :=
  dot_S100000x128_S128x40_S100000x40_1_0_0_1_n_n.rhsIdx_val_of_single rfl j p
theorem dot2_rhs1 (j : S100000x40.Idx) (p : dot_S100000x128_S128x40_S100000x40_1_0_0_1_n_n.contr.Idx) :
    (dot_S100000x128_S128x40_S100000x40_1_0_0_1_n_n.rhsIdx j p 1).val = (j 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- The second layer's product on the host, read at node `i`, class `q`: the sum over the contracted feature axis. -/
theorem dot2_apply (L : FVec Ideal S100000x128 .f32) (W : FVec Ideal S128x40 .f32) (i : Fin 100000) (q : Fin 40) :
    Host.dotGeneral dot_S100000x128_S128x40_S100000x40_1_0_0_1_n_n none L W (ix2 i q) = ∑ k : Fin 128, L (ix2 i k) * W (ix2 k q) := by
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 i q) ((ValueIdx.contrEquiv1 dot_S100000x128_S128x40_S100000x40_1_0_0_1_n_n 128 rfl rfl).symm k) = ix2 i k := funext fun a => Fin.ext (by
    match a with
    | ⟨0, _⟩ => exact dot2_lhs0 _ _
    | ⟨1, _⟩ => exact (dot2_lhs1 _ _).trans hk)
  have er : dot_S100000x128_S128x40_S100000x40_1_0_0_1_n_n.rhsIdx (ix2 i q) ((ValueIdx.contrEquiv1 dot_S100000x128_S128x40_S100000x40_1_0_0_1_n_n 128 rfl rfl).symm k) = ix2 k q := funext fun a => Fin.ext (by
    match a with
    | ⟨0, _⟩ => exact (dot2_rhs0 _ _).trans hk
    | ⟨1, _⟩ => exact dot2_rhs1 _ _)
  rw [el, er]

/-! ## The sum over the nodes and the division -/

/-- The host's sum along the node axis from the zero word, read at class `j`: the sum over the nodes. -/
theorem reduce_apply (X : FVec Ideal S100000x40 .f32) (j : Fin 40) :
    Host.reduceAdd X (constant (F := Ideal) S_ .f32 0x00000000#32 : FVec Ideal S_ .f32) reducesTo_S100000x40_S40_d0 h_S_ (ix1 j) = ∑ i : Fin 100000, X (ix2 i j) := by
  simp only [Host.reduceAdd, Ideal.hostReduceAdd_def]
  rw [Ideal.hostReduceAdd_single reducesTo_S100000x40_S40_d0 (by decide), zero_const_apply, zero_add]
  refine Finset.sum_congr rfl fun k _ => ?_
  exact congrArg X (funext fun a => Fin.ext (by match a with | ⟨0, _⟩ => rfl | ⟨1, _⟩ => rfl))

/-- Division on the host by the broadcast word of 100000 is multiplication by 1/100000. -/
theorem div_apply (A : FVec Ideal S40 .f32) (j : S40.Idx) :
    Host.divf A (broadcastInDim S40 ![] bcast_S_S40 (constant (F := Ideal) S_ .f32 0x47C35000#32)) j = A j * ((1 / 100000 : ℝ) : EReal) := by
  show Ideal.div (A j) ((broadcastInDim S40 ![] bcast_S_S40 (constant (F := Ideal) S_ .f32 0x47C35000#32) : FVec Ideal S40 .f32) j) = _
  rw [broadcastInDim_apply _ bcast_S_S40 _ j (fun a => a.elim0) (fun a => a.elim0)]
  show Ideal.div (A j) (Ideal.ofBits .f32 0x47C35000#32) = _
  rw [ofBits_100000, Ideal.div_coe (by norm_num)]

/-! ## The two layers as the reference spells them, over any operator on tables and any self-weight vector -/

/-- The first layer as the reference composes it. -/
def hidT (msg : FVec Ideal S100000x128 .f32 → FVec Ideal S100000x128 .f32) (sv : FVec Ideal S100000 .f32) (x : FVec Ideal S100000x128 .f32)
    (W1 : FVec Ideal S128x128 .f32) (b1 : FVec Ideal S128 .f32) : FVec Ideal S100000x128 .f32 :=
  maximumf (F := Ideal) (addf (F := Ideal) (Host.dotGeneral (F := Ideal) dot_S100000x128_S128x128_S100000x128_1_0_0_1_n_n none (addf (F := Ideal) (msg x) (mulf (F := Ideal) (broadcastInDim S100000x128 ![0, 1] bcast_S100000x1_S100000x128_0_1 (broadcastInDim S100000x1 ![0] bcast_S100000_S100000x1_0 sv)) x)) W1) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))

/-- The second layer, its sum over the nodes and the division, as the reference composes them from a table `h`. -/
def outT (msg : FVec Ideal S100000x128 .f32 → FVec Ideal S100000x128 .f32) (sv : FVec Ideal S100000 .f32) (h : FVec Ideal S100000x128 .f32)
    (W2 : FVec Ideal S128x40 .f32) (b2 : FVec Ideal S40 .f32) : FVec Ideal S40 .f32 :=
  Host.divf (F := Ideal) (Host.reduceAdd (F := Ideal) (addf (F := Ideal) (Host.dotGeneral (F := Ideal) dot_S100000x128_S128x40_S100000x40_1_0_0_1_n_n none (addf (F := Ideal) (msg h) (mulf (F := Ideal) (broadcastInDim S100000x128 ![0, 1] bcast_S100000x1_S100000x128_0_1 (broadcastInDim S100000x1 ![0] bcast_S100000_S100000x1_0 sv)) h)) W2) (broadcastInDim S100000x40 ![0, 1] bcast_S1x40_S100000x40_0_1 (broadcastInDim S1x40 ![1] bcast_S40_S1x40_1 b2))) (constant (F := Ideal) S_ .f32 0x00000000#32) reducesTo_S100000x40_S40_d0 h_S_) (broadcastInDim S40 ![] bcast_S_S40 (constant (F := Ideal) S_ .f32 0x47C35000#32))

/-- The first layer is the specification's hidden table. -/
theorem hidT_eq (msg : FVec Ideal S100000x128 .f32 → FVec Ideal S100000x128 .f32) (sv : FVec Ideal S100000 .f32) (x : FVec Ideal S100000x128 .f32)
    (W1 : FVec Ideal S128x128 .f32) (b1 : FVec Ideal S128 .f32) :
    hidT msg sv x W1 b1 = Cert.Spec.hidden msg (fun i => sv (ix1 i)) x W1 (fun q => b1 (ix1 q)) := by
  funext j
  obtain ⟨i, q, rfl⟩ : ∃ i q, j = ix2 i q := ⟨j 0, j 1, eq_ix2 j⟩
  rw [Cert.Spec.hidden_apply]
  unfold hidT Cert.Spec.hiddenAt
  rw [maximumf_apply, addf_apply, dot1_apply, bcastBias128_apply, zeros_apply]
  refine congrArg (fun t => max (t + b1 (ix1 q)) 0) (Finset.sum_congr rfl fun k _ => ?_)
  rw [addf_apply, mulf_apply, bcastNode_apply]

/-- The second layer, summed over the nodes and divided, is the specification's mean of the logits. -/
theorem outT_eq (msg : FVec Ideal S100000x128 .f32 → FVec Ideal S100000x128 .f32) (sv : FVec Ideal S100000 .f32) (h : FVec Ideal S100000x128 .f32)
    (W2 : FVec Ideal S128x40 .f32) (b2 : FVec Ideal S40 .f32) (j : Fin 40) :
    outT msg sv h W2 b2 (ix1 j)
      = (∑ i : Fin 100000, Cert.Spec.logitAt msg (fun i => sv (ix1 i)) h W2 (fun q => b2 (ix1 q)) i j) * ((1 / 100000 : ℝ) : EReal) := by
  unfold outT
  rw [div_apply, reduce_apply]
  refine congrArg (· * ((1 / 100000 : ℝ) : EReal)) (Finset.sum_congr rfl fun i _ => ?_)
  unfold Cert.Spec.logitAt
  rw [addf_apply, dot2_apply, bcastBias40_apply]
  refine congrArg (· + b2 (ix1 j)) (Finset.sum_congr rfl fun k _ => ?_)
  rw [addf_apply, mulf_apply, bcastNode_apply]

/-! ## The reference's result -/

set_option maxRecDepth 8192 in
/-- The reference's composed term is the two layers at the shared host operator and self weights: the same term,
    with its repeated parts named. -/
theorem res_eq_layers (m : (ℓ : Loc nD τ sig) → Buf (Elt Ideal) ℓ) (c : Dev nD) :
    Cert.ReferenceIdeal.ValueP.res_main_v75 (F := Ideal) m c
      = outT (Cert.HostOps.msgOp (m ((c.tc : Thread nD τ).loc main_arg0))) (Cert.HostOps.selfVec (m ((c.tc : Thread nD τ).loc main_arg0)))
          (hidT (Cert.HostOps.msgOp (m ((c.tc : Thread nD τ).loc main_arg0))) (Cert.HostOps.selfVec (m ((c.tc : Thread nD τ).loc main_arg0))) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) := by
  unfold Cert.ReferenceIdeal.ValueP.res_main_v75 outT hidT Cert.HostOps.msgOp Cert.HostOps.selfVec
  rfl

/-- The reference's result is the specification at the shared host operator and self weights. -/
theorem ref_result (m : (ℓ : Loc nD τ sig) → Buf (Elt Ideal) ℓ) (c : Dev nD) :
    Cert.ReferenceIdeal.ValueP.res_main_v75 (F := Ideal) m c
      = Cert.Spec.result (Cert.HostOps.msgOp (m ((c.tc : Thread nD τ).loc main_arg0))) (Cert.HostOps.selfW (m ((c.tc : Thread nD τ).loc main_arg0)))
          (m ((c.tc : Thread nD τ).loc main_arg1)) (m ((c.tc : Thread nD τ).loc main_arg2)) (fun q => (m ((c.tc : Thread nD τ).loc main_arg3)) (ix1 q))
          (m ((c.tc : Thread nD τ).loc main_arg4)) (fun j => (m ((c.tc : Thread nD τ).loc main_arg5)) (ix1 j)) := by
  rw [res_eq_layers, hidT_eq]
  funext j
  obtain ⟨j, rfl⟩ : ∃ j', j = ix1 j' := ⟨j 0, eq_ix1 j⟩
  exact outT_eq _ _ _ _ _ j

/-- The reference's run: every weakly fair execution of @main terminates with the result buffer at the composed term
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = Cert.ReferenceIdeal.ValueP.res_main_v75 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.ValueP.run m ρ

end Cert.RefSpec

end
-- ==== Proof.HostParts.lean ====
/-
  The message-passing operator in terms of its three host-side ingredients.

  From the edge array the host reads the target node of every edge (row 0), the source node of every edge (row 1),
  and computes every edge's weight (the product of the inverse square roots of the degrees of its two ends).  The
  operator on tables then only uses these three: gather the table's rows at the source nodes (an index below zero
  counted from the end), scale row `e` by the weight of edge `e`, and add the rows up at the target nodes.
-/
import proofs.«122011_j58411555225966_1_alg».proof.Proof.HostOps

noncomputable section

namespace Cert.HostOps

open Cert.ReferenceIdeal Cert.ReferenceIdeal.Facts₀ Idealize.ShloMosaic Idealize.ShloMosaic.ValueIdx

variable [Cert.ReferenceIdeal.Facts₀]

/-- The target node of every edge: row 0 of the edge array. -/
def rowIdx (a0 : (⟨S2x1600000, .i32⟩ : BufTy).Contents (Elt Ideal)) : IVec S1600000 32 :=
  shapeCast _ (extractStridedSlice S1x1600000 ![0, 0] a0 slices_S2x1600000_S1x1600000_0_0) shapeCasts_S1x1600000_S1600000

/-- The source node of every edge: row 1 of the edge array. -/
def colIdx (a0 : (⟨S2x1600000, .i32⟩ : BufTy).Contents (Elt Ideal)) : IVec S1600000 32 :=
  shapeCast _ (extractStridedSlice S1x1600000 ![1, 0] a0 slices_S2x1600000_S1x1600000_1_0) shapeCasts_S1x1600000_S1600000

set_option maxRecDepth 8192 in
/-- The weight of every edge: the product of the inverse square roots of the degrees of its target and its source. -/
def edgeW (a0 : (⟨S2x1600000, .i32⟩ : BufTy).Contents (Elt Ideal)) : FVec Ideal S1600000 .f32 :=
  mulf (F := Ideal) (Host.gather gather_S100000_S1600000x1_S1600000_n_0_n_n_0_1_1 (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))) (broadcastInDim S1600000x1 ![0] bcast_S1600000_S1600000x1_0 (select (cmpi .slt (shapeCast _ (extractStridedSlice S1x1600000 ![0, 0] a0 slices_S2x1600000_S1x1600000_0_0) shapeCasts_S1x1600000_S1600000) (broadcastInDim S1600000 ![] bcast_S_S1600000 (constantI S_ 32 0#32))) (addi (shapeCast _ (extractStridedSlice S1x1600000 ![0, 0] a0 slices_S2x1600000_S1x1600000_0_0) shapeCasts_S1x1600000_S1600000) (broadcastInDim S1600000 ![] bcast_S_S1600000 (constantI S_ 32 100000#32))) (shapeCast _ (extractStridedSlice S1x1600000 ![0, 0] a0 slices_S2x1600000_S1x1600000_0_0) shapeCasts_S1x1600000_S1600000)))) (Host.gather gather_S100000_S1600000x1_S1600000_n_0_n_n_0_1_1 (select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))) (broadcastInDim S1600000x1 ![0] bcast_S1600000_S1600000x1_0 (select (cmpi .slt (shapeCast _ (extractStridedSlice S1x1600000 ![1, 0] a0 slices_S2x1600000_S1x1600000_1_0) shapeCasts_S1x1600000_S1600000) (broadcastInDim S1600000 ![] bcast_S_S1600000 (constantI S_ 32 0#32))) (addi (shapeCast _ (extractStridedSlice S1x1600000 ![1, 0] a0 slices_S2x1600000_S1x1600000_1_0) shapeCasts_S1x1600000_S1600000) (broadcastInDim S1600000 ![] bcast_S_S1600000 (constantI S_ 32 100000#32))) (shapeCast _ (extractStridedSlice S1x1600000 ![1, 0] a0 slices_S2x1600000_S1x1600000_1_0) shapeCasts_S1x1600000_S1600000))))

set_option maxRecDepth 8192 in
/-- The inverse square root of every node's degree (one plus the number of edges into the node), zero where the
    degree is not positive. -/
def dVec (a0 : (⟨S2x1600000, .i32⟩ : BufTy).Contents (Elt Ideal)) : FVec Ideal S100000 .f32 :=
  select (cmpf (F := Ideal) .ogt (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))) (broadcastInDim S100000 ![] bcast_S_S100000 (constant (F := Ideal) S_ .f32 0x00000000#32))) (Host.rsqrt (F := Ideal) (addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32))))) (broadcastInDim S100000 ![] bcast_S_S100000 (id (constant (F := Ideal) S_ .f32 0x00000000#32)))

set_option maxRecDepth 8192 in
/-- Every node's degree: one (the self loop) plus the number of edges into the node. -/
def degVec (a0 : (⟨S2x1600000, .i32⟩ : BufTy).Contents (Elt Ideal)) : FVec Ideal S100000 .f32 :=
  addf (F := Ideal) (broadcastInDim S100000 ![] bcast_S_S100000 (constant (F := Ideal) S_ .f32 0x3F800000#32)) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![0, 0] a0 slices_S2x1600000_S1x1600000_0_0) shapeCasts_S1x1600000_S1600000)) (broadcastInDim S1600000 ![] bcast_S_S1600000 (constant (F := Ideal) S_ .f32 0x3F800000#32)))

/-- Where the degree is positive. -/
def cmpDeg (a0 : (⟨S2x1600000, .i32⟩ : BufTy).Contents (Elt Ideal)) : IVec S100000 1 :=
  cmpf (F := Ideal) .ogt (degVec a0) (broadcastInDim S100000 ![] bcast_S_S100000 (constant (F := Ideal) S_ .f32 0x00000000#32))

/-- The inverse square root of the degree. -/
def rsDeg (a0 : (⟨S2x1600000, .i32⟩ : BufTy).Contents (Elt Ideal)) : FVec Ideal S100000 .f32 :=
  Host.rsqrt (F := Ideal) (degVec a0)

/-- The zero scalar. -/
def zeroS : FVec Ideal S_ .f32 := constant (F := Ideal) S_ .f32 0x00000000#32

/-- Choose `r12` where `c11` holds and the scalar `z`, broadcast to every node, elsewhere. -/
def dFrom (c11 : IVec S100000 1) (r12 : FVec Ideal S100000 .f32) (z : FVec Ideal S_ .f32) : FVec Ideal S100000 .f32 :=
  select c11 r12 (broadcastInDim S100000 ![] bcast_S_S100000 (id z))

set_option maxRecDepth 8192 in
/-- The inverse square root degrees: the inverse square root of the degree where it is positive, zero elsewhere. -/
theorem dVec_eq (a0 : (⟨S2x1600000, .i32⟩ : BufTy).Contents (Elt Ideal)) :
    dVec a0 = dFrom (cmpDeg a0) (rsDeg a0) zeroS := by
  unfold dVec dFrom cmpDeg rsDeg zeroS degVec
  rfl

/-- The weight of every edge from the nodes' inverse square root degrees `d`: `d` at the edge's target times `d` at its
    source (an index below zero counted from the end). -/
def edgeWFrom (d : FVec Ideal S100000 .f32) (r cI : IVec S1600000 32) : FVec Ideal S1600000 .f32 :=
  mulf (F := Ideal) (Host.gather gather_S100000_S1600000x1_S1600000_n_0_n_n_0_1_1 d (broadcastInDim S1600000x1 ![0] bcast_S1600000_S1600000x1_0 (select (cmpi .slt r (broadcastInDim S1600000 ![] bcast_S_S1600000 (constantI S_ 32 0#32))) (addi r (broadcastInDim S1600000 ![] bcast_S_S1600000 (constantI S_ 32 100000#32))) r))) (Host.gather gather_S100000_S1600000x1_S1600000_n_0_n_n_0_1_1 d (broadcastInDim S1600000x1 ![0] bcast_S1600000_S1600000x1_0 (select (cmpi .slt cI (broadcastInDim S1600000 ![] bcast_S_S1600000 (constantI S_ 32 0#32))) (addi cI (broadcastInDim S1600000 ![] bcast_S_S1600000 (constantI S_ 32 100000#32))) cI)))

set_option maxRecDepth 8192 in
/-- The edge weights are `edgeWFrom` at the inverse square root degrees and the edge array's targets and sources. -/
theorem edgeW_eq (a0 : (⟨S2x1600000, .i32⟩ : BufTy).Contents (Elt Ideal)) :
    edgeW a0 = edgeWFrom (dVec a0) (rowIdx a0) (colIdx a0) := by
  unfold edgeW edgeWFrom dVec rowIdx colIdx
  rfl

set_option maxRecDepth 8192 in
/-- The self weights are the squares of the inverse square root degrees. -/
theorem selfVec_eq (a0 : (⟨S2x1600000, .i32⟩ : BufTy).Contents (Elt Ideal)) :
    selfVec a0 = mulf (F := Ideal) (dVec a0) (dVec a0) := by
  unfold selfVec dVec
  rfl

/-- Gather the rows of `x` at the source nodes `cI`, scale row `e` by `ew e`, add the rows up at the target nodes `r`. -/
def msgFrom (r cI : IVec S1600000 32) (ew : FVec Ideal S1600000 .f32) (x : Cert.Spec.Table) : Cert.Spec.Table :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 r) (mulf (F := Ideal) (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 x (broadcastInDim S1600000x1 ![0] bcast_S1600000_S1600000x1_0 (select (cmpi .slt cI (broadcastInDim S1600000 ![] bcast_S_S1600000 (constantI S_ 32 0#32))) (addi cI (broadcastInDim S1600000 ![] bcast_S_S1600000 (constantI S_ 32 100000#32))) cI))))

set_option maxRecDepth 8192 in
/-- The message-passing operator is `msgFrom` at the edge array's targets, sources and weights. -/
theorem msgOp_eq_msgFrom (a0 : (⟨S2x1600000, .i32⟩ : BufTy).Contents (Elt Ideal)) (x : Cert.Spec.Table) :
    msgOp a0 x = msgFrom (rowIdx a0) (colIdx a0) (edgeW a0) x := by
  unfold msgOp msgFrom rowIdx colIdx edgeW
  rfl

end Cert.HostOps

end
-- ==== Proof.KiHostStretch.lean ====
/-
  The kernel program's host stretches, each read over an ARBITRARY valuation of the buffers it starts from.

  Before the first launch the host runs three stretches: the first reads the edges' target and source nodes off the
  edge array and computes the degrees' inverse square roots up to the choice "zero where the degree is not positive",
  which the second (an outlined three-operation function) makes; the third computes the edge weights, the self
  weights, and applies the message-passing operator to the node features.  Between the launches the same operator is
  applied to the first launch's output, with the targets, sources and weights computed before.  After the second
  launch one reshape remains.  Each result buffer is the composed term of the operations that feed it — one
  rewriting pass, no evaluation — stated with the buffers a stretch starts from as named inputs, so that the long
  stretches never see the terms of the earlier ones.
-/
import proofs.«122011_j58411555225966_1_alg».proof.Proof.Gen.KernelIdeal.Launch
import proofs.«122011_j58411555225966_1_alg».proof.Proof.Gen.KernelIdeal.Regions
import proofs.«122011_j58411555225966_1_alg».proof.Proof.HostParts
import Idealize.ShloMosaic.Lib.StableHlo.Run

set_option maxRecDepth 16384
-- one theorem at a time: each rewriting pass over a host stretch holds its own working memory
set_option Elab.async false

noncomputable section

namespace Cert.KernelIdeal.HandValue

open Cert.KernelIdeal Cert.KernelIdeal.Gen
open Idealize.ShloMosaic Idealize.ShloMosaic.TcCoe Idealize.SL.Sem Idealize.ShloMosaic.StableHlo Idealize.ShloMosaic.ValueIdx

variable [Cert.ReferenceIdeal.Facts₀]

/-! ## The first stretch and the outlined function -/

section First

variable (W : Valuation τ sig (Elt Ideal))

set_option maxHeartbeats 4000000 in
/-- The edges' target nodes: row 0 of the edge array. -/
theorem s0_v1 : StableHlo.after hostOps0 W (Proc.devRef .tc main_v1) = Cert.HostOps.rowIdx (W (Proc.devRef .tc main_arg0)) := by
  after_results_simp
  rfl

set_option maxHeartbeats 4000000 in
/-- The edges' source nodes: row 1 of the edge array. -/
theorem s0_v3 : StableHlo.after hostOps0 W (Proc.devRef .tc main_v3) = Cert.HostOps.colIdx (W (Proc.devRef .tc main_arg0)) := by
  after_results_simp
  rfl

set_option maxHeartbeats 4000000 in
/-- Where the degree is positive. -/
theorem s0_v11 : StableHlo.after hostOps0 W (Proc.devRef .tc main_v11) = Cert.HostOps.cmpDeg (W (Proc.devRef .tc main_arg0)) := by
  after_results_simp
  unfold Cert.HostOps.cmpDeg Cert.HostOps.degVec
  rfl

set_option maxHeartbeats 4000000 in
/-- The inverse square root of the degree. -/
theorem s0_v12 : StableHlo.after hostOps0 W (Proc.devRef .tc main_v12) = Cert.HostOps.rsDeg (W (Proc.devRef .tc main_arg0)) := by
  after_results_simp
  unfold Cert.HostOps.rsDeg Cert.HostOps.degVec
  rfl

set_option maxHeartbeats 4000000 in
/-- The zero scalar the outlined function is called with. -/
theorem s0_cst3 : StableHlo.after hostOps0 W (Proc.devRef .tc main_cst_3) = Cert.HostOps.zeroS := by
  after_results_simp
  rfl

/-- The outlined function, over an arbitrary valuation: its operands' contents moved along identity casts. -/
theorem where_v13' (U : Valuation τ sig (Elt Ideal)) : StableHlo.after hostOps0_1 U (Proc.devRef .tc main_v13)
      = Cert.HostOps.dFrom (U (Proc.devRef .tc main_v11)) (U (Proc.devRef .tc main_v12)) (U (Proc.devRef .tc main_cst_3)) := by
  after_results_simp
  rfl

/-- The outlined function chooses `r12` where `c11` holds and the scalar `z` elsewhere. -/
theorem where_v13 (U : Valuation τ sig (Elt Ideal)) (c11 : IVec Cert.ReferenceIdeal.S100000 1)
    (r12 : FVec Ideal Cert.ReferenceIdeal.S100000 .f32) (z : FVec Ideal Cert.ReferenceIdeal.S_ .f32)
    (h11 : U (Proc.devRef .tc main_v11) = c11) (h12 : U (Proc.devRef .tc main_v12) = r12) (hz : U (Proc.devRef .tc main_cst_3) = z) :
    StableHlo.after hostOps0_1 U (Proc.devRef .tc main_v13) = Cert.HostOps.dFrom c11 r12 z := by
  subst h11 h12 hz; exact where_v13' U

/-- The degrees' inverse square roots, zero where the degree is not positive. -/
theorem s01_v13 : StableHlo.after hostOps0_1 (StableHlo.after hostOps0 W) (Proc.devRef .tc main_v13) = Cert.HostOps.dVec (W (Proc.devRef .tc main_arg0)) :=
  (where_v13 _ _ _ _ (s0_v11 W) (s0_v12 W) (s0_cst3 W)).trans (Cert.HostOps.dVec_eq _).symm

end First

/-! ## The third stretch, from named inputs -/

section Third

variable (V : Valuation τ sig (Elt Ideal))

set_option maxHeartbeats 4000000 in
theorem s2_v28' : StableHlo.after hostOps0_2 V (Proc.devRef .tc main_v28)
      = Cert.HostOps.edgeWFrom (V (Proc.devRef .tc main_v13)) (V (Proc.devRef .tc main_v1)) (V (Proc.devRef .tc main_v3)) := by
  after_results_simp
  unfold Cert.HostOps.edgeWFrom
  rfl

set_option maxHeartbeats 4000000 in
theorem s2_v30' : StableHlo.after hostOps0_2 V (Proc.devRef .tc main_v30)
      = shapeCast S100000x1 (mulf (F := Ideal) (s := Cert.ReferenceIdeal.S100000) (φ := .f32) (V (Proc.devRef .tc main_v13)) (V (Proc.devRef .tc main_v13))) shapeCasts_S100000_S100000x1 := by
  after_results_simp
  rfl

set_option maxHeartbeats 4000000 in
theorem s2_v43' : StableHlo.after hostOps0_2 V (Proc.devRef .tc main_v43)
      = Cert.HostOps.msgFrom (V (Proc.devRef .tc main_v1)) (V (Proc.devRef .tc main_v3))
          (Cert.HostOps.edgeWFrom (V (Proc.devRef .tc main_v13)) (V (Proc.devRef .tc main_v1)) (V (Proc.devRef .tc main_v3))) (V (Proc.devRef .tc main_arg1)) := by
  after_results_simp
  unfold Cert.HostOps.msgFrom Cert.HostOps.edgeWFrom
  rfl

set_option maxHeartbeats 4000000 in
theorem s2_v44' : StableHlo.after hostOps0_2 V (Proc.devRef .tc main_v44) = shapeCast S1x128 (V (Proc.devRef .tc main_arg3)) shapeCasts_S128_S1x128 := by
  after_results_simp
  rfl

/-- The edge weights, from the inverse square root degrees `d`, the targets `r` and the sources `cI`. -/
theorem s2_v28 (d : FVec Ideal Cert.ReferenceIdeal.S100000 .f32) (r cI : IVec Cert.ReferenceIdeal.S1600000 32)
    (hd : V (Proc.devRef .tc main_v13) = d) (h1 : V (Proc.devRef .tc main_v1) = r) (h3 : V (Proc.devRef .tc main_v3) = cI) :
    StableHlo.after hostOps0_2 V (Proc.devRef .tc main_v28) = Cert.HostOps.edgeWFrom d r cI := by
  subst hd h1 h3; exact s2_v28' V

/-- The self weights as a column, from the inverse square root degrees `d`. -/
theorem s2_v30 (d : FVec Ideal Cert.ReferenceIdeal.S100000 .f32) (hd : V (Proc.devRef .tc main_v13) = d) :
    StableHlo.after hostOps0_2 V (Proc.devRef .tc main_v30) = shapeCast S100000x1 (mulf (F := Ideal) d d) shapeCasts_S100000_S100000x1 := by
  subst hd; exact s2_v30' V

/-- The message-passing operator applied to the table `x`. -/
theorem s2_v43 (d : FVec Ideal Cert.ReferenceIdeal.S100000 .f32) (r cI : IVec Cert.ReferenceIdeal.S1600000 32) (x : Cert.Spec.Table)
    (hd : V (Proc.devRef .tc main_v13) = d) (h1 : V (Proc.devRef .tc main_v1) = r) (h3 : V (Proc.devRef .tc main_v3) = cI) (hx : V (Proc.devRef .tc main_arg1) = x) :
    StableHlo.after hostOps0_2 V (Proc.devRef .tc main_v43) = Cert.HostOps.msgFrom r cI (Cert.HostOps.edgeWFrom d r cI) x := by
  subst hd h1 h3 hx; exact s2_v43' V

/-- The first bias as a row. -/
theorem s2_v44 (b : FVec Ideal S128 .f32) (hb : V (Proc.devRef .tc main_arg3) = b) :
    StableHlo.after hostOps0_2 V (Proc.devRef .tc main_v44) = shapeCast S1x128 b shapeCasts_S128_S1x128 := by
  subst hb; exact s2_v44' V

end Third

/-! ## The three stretches together -/

section Before

variable (W : Valuation τ sig (Elt Ideal))

theorem v01_v1 : (StableHlo.after hostOps0_1 (StableHlo.after hostOps0 W)) (Proc.devRef .tc main_v1) = Cert.HostOps.rowIdx (W (Proc.devRef .tc main_arg0)) :=
  (StableHlo.after_of_writes_sub hostOps0_1 _ hostOps0_1_writes (r := main_v1) (by decide)).trans (s0_v1 W)
theorem v01_v3 : (StableHlo.after hostOps0_1 (StableHlo.after hostOps0 W)) (Proc.devRef .tc main_v3) = Cert.HostOps.colIdx (W (Proc.devRef .tc main_arg0)) :=
  (StableHlo.after_of_writes_sub hostOps0_1 _ hostOps0_1_writes (r := main_v3) (by decide)).trans (s0_v3 W)
theorem v01_arg1 : (StableHlo.after hostOps0_1 (StableHlo.after hostOps0 W)) (Proc.devRef .tc main_arg1) = W (Proc.devRef .tc main_arg1) :=
  (StableHlo.after_of_writes_sub hostOps0_1 _ hostOps0_1_writes (r := main_arg1) (by decide)).trans (StableHlo.after_of_writes_sub hostOps0 _ hostOps0_writes (r := main_arg1) (by decide))
theorem v01_arg3 : (StableHlo.after hostOps0_1 (StableHlo.after hostOps0 W)) (Proc.devRef .tc main_arg3) = W (Proc.devRef .tc main_arg3) :=
  (StableHlo.after_of_writes_sub hostOps0_1 _ hostOps0_1_writes (r := main_arg3) (by decide)).trans (StableHlo.after_of_writes_sub hostOps0 _ hostOps0_writes (r := main_arg3) (by decide))

/-- Before the first launch: the edges' target nodes. -/
theorem pre0_v1 : StableHlo.after hostOps0_2 (StableHlo.after hostOps0_1 (StableHlo.after hostOps0 W)) (Proc.devRef .tc main_v1) = Cert.HostOps.rowIdx (W (Proc.devRef .tc main_arg0)) :=
  (StableHlo.after_of_writes_sub hostOps0_2 _ hostOps0_2_writes (r := main_v1) (by decide)).trans (v01_v1 W)

/-- Before the first launch: the edges' source nodes. -/
theorem pre0_v3 : StableHlo.after hostOps0_2 (StableHlo.after hostOps0_1 (StableHlo.after hostOps0 W)) (Proc.devRef .tc main_v3) = Cert.HostOps.colIdx (W (Proc.devRef .tc main_arg0)) :=
  (StableHlo.after_of_writes_sub hostOps0_2 _ hostOps0_2_writes (r := main_v3) (by decide)).trans (v01_v3 W)

/-- Before the first launch: the edges' weights. -/
theorem pre0_v28 : StableHlo.after hostOps0_2 (StableHlo.after hostOps0_1 (StableHlo.after hostOps0 W)) (Proc.devRef .tc main_v28) = Cert.HostOps.edgeW (W (Proc.devRef .tc main_arg0)) :=
  (s2_v28 _ _ _ _ (s01_v13 W) (v01_v1 W) (v01_v3 W)).trans (Cert.HostOps.edgeW_eq _).symm

/-- Before the first launch: the self weights, as a column. -/
theorem pre0_v30 : StableHlo.after hostOps0_2 (StableHlo.after hostOps0_1 (StableHlo.after hostOps0 W)) (Proc.devRef .tc main_v30)
      = shapeCast S100000x1 (Cert.HostOps.selfVec (W (Proc.devRef .tc main_arg0))) shapeCasts_S100000_S100000x1 :=
  (s2_v30 _ _ (s01_v13 W)).trans
    (congrArg (fun z : FVec Ideal Cert.ReferenceIdeal.S100000 .f32 => shapeCast S100000x1 z shapeCasts_S100000_S100000x1)
      (Cert.HostOps.selfVec_eq _).symm)

/-- Before the first launch: the message-passing operator applied to the node features. -/
theorem pre0_v43 : StableHlo.after hostOps0_2 (StableHlo.after hostOps0_1 (StableHlo.after hostOps0 W)) (Proc.devRef .tc main_v43)
      = Cert.HostOps.msgOp (W (Proc.devRef .tc main_arg0)) (W (Proc.devRef .tc main_arg1)) := by
  refine (s2_v43 _ _ _ _ _ (s01_v13 W) (v01_v1 W) (v01_v3 W) (v01_arg1 W)).trans ?_
  rw [Cert.HostOps.msgOp_eq_msgFrom, Cert.HostOps.edgeW_eq]

/-- Before the first launch: the first bias, as a row. -/
theorem pre0_v44 : StableHlo.after hostOps0_2 (StableHlo.after hostOps0_1 (StableHlo.after hostOps0 W)) (Proc.devRef .tc main_v44) = shapeCast S1x128 (W (Proc.devRef .tc main_arg3)) shapeCasts_S128_S1x128 :=
  s2_v44 _ _ (v01_arg3 W)

end Before

/-! ## Between the launches, and after the second -/

section Later

variable (W : Valuation τ sig (Elt Ideal))

set_option maxHeartbeats 4000000 in
theorem post1_v58' : StableHlo.after hostOps1 W (Proc.devRef .tc main_v58)
      = Cert.HostOps.msgFrom (W (Proc.devRef .tc main_v1)) (W (Proc.devRef .tc main_v3)) (W (Proc.devRef .tc main_v28)) (W (Proc.devRef .tc main_v45)) := by
  after_results_simp
  unfold Cert.HostOps.msgFrom
  rfl

set_option maxHeartbeats 4000000 in
theorem post1_v59' : StableHlo.after hostOps1 W (Proc.devRef .tc main_v59) = shapeCast S1x40 (W (Proc.devRef .tc main_arg5)) shapeCasts_S40_S1x40 := by
  after_results_simp
  rfl

theorem post2_v61' : StableHlo.after hostOps2 W (Proc.devRef .tc main_v61) = shapeCast S40 (W (Proc.devRef .tc main_v60)) shapeCasts_S1x40_S40 := by
  after_results_simp
  rfl

/-- Between the launches: gather, scale and add up the table `x`, with targets `r`, sources `cI` and weights `ew`. -/
theorem post1_v58 (r cI : IVec Cert.ReferenceIdeal.S1600000 32) (ew : FVec Ideal Cert.ReferenceIdeal.S1600000 .f32) (x : Cert.Spec.Table)
    (h1 : W (Proc.devRef .tc main_v1) = r) (h3 : W (Proc.devRef .tc main_v3) = cI) (h28 : W (Proc.devRef .tc main_v28) = ew) (h45 : W (Proc.devRef .tc main_v45) = x) :
    StableHlo.after hostOps1 W (Proc.devRef .tc main_v58) = Cert.HostOps.msgFrom r cI ew x := by
  subst h1 h3 h28 h45; exact post1_v58' W

/-- Between the launches: the second bias, as a row. -/
theorem post1_v59 (b : FVec Ideal S40 .f32) (hb : W (Proc.devRef .tc main_arg5) = b) :
    StableHlo.after hostOps1 W (Proc.devRef .tc main_v59) = shapeCast S1x40 b shapeCasts_S40_S1x40 := by
  subst hb; exact post1_v59' W

/-- After the second launch: its [1, 40] output `y` as a vector. -/
theorem post2_v61 (y : FVec Ideal S1x40 .f32) (hy : W (Proc.devRef .tc main_v60) = y) :
    StableHlo.after hostOps2 W (Proc.devRef .tc main_v61) = shapeCast S40 y shapeCasts_S1x40_S40 := by
  subst hy; exact post2_v61' W

end Later

end Cert.KernelIdeal.HandValue

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KiHost.lean ====
/-
  The kernel program's host side in the program's run: what its two launches are entered from, and what it
  returns, in terms of the host computations it shares with the reference.

  Before the first launch the host normalises the adjacency matrix and applies the message-passing operator to the
  node features; between the launches it applies the same operator to the first launch's output; after the second it
  only reshapes the [1, 40] output to [40].  Each host stretch has been read over an arbitrary valuation of the
  buffers it starts from; here those readings are placed in the run: a buffer no operation of a stretch writes is
  what it was before the stretch, a launch changes only its own arrays, and an array a launch only reads is left as
  it was.  The message-passing operator and the self weights stay the named host computations throughout.
-/
import proofs.«122011_j58411555225966_1_alg».proof.Proof.KiRun
import proofs.«122011_j58411555225966_1_alg».proof.Proof.KiHostStretch
import proofs.«122011_j58411555225966_1_alg».proof.Proof.LibKeepdims
import proofs.«122011_j58411555225966_1_alg».proof.Proof.Gen.ReferenceIdeal
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

/-- The first launch's aggregated input: the message-passing operator at the node features. -/
theorem host_msg1 : (VE0 m ρ c main_v43 : S100000x128.Idx → EReal) = Cert.HostOps.msgOp (m ((c.tc : Thread nD τ).loc main_arg0)) (m ((c.tc : Thread nD τ).loc main_arg1)) :=
  pre0_v43 (W0 m ρ c)

/-- The first launch's self-weight column reads the self weight of its node. -/
theorem host_self0 : ∀ i : Fin 100000, (VE0 m ρ c main_v30 : S100000x1.Idx → EReal) (ix2 i (0 : Fin 1)) = Cert.HostOps.selfW (m ((c.tc : Thread nD τ).loc main_arg0)) i :=
  fun i => (congrFun (pre0_v30 (W0 m ρ c)) (ix2 i (0 : Fin 1))).trans
    ((Cert.LibKeepdims.shapeCast_a_a1_apply _ _ i (0 : Fin 1)).trans (Cert.HostOps.selfW_eq _ i).symm)

/-- The first launch reads the node features as launched. -/
theorem host_x0 : VE0 m ρ c main_arg1 = (m ((c.tc : Thread nD τ).loc main_arg1)) :=
  ((StableHlo.after_of_writes_sub hostOps0_2 _ hostOps0_2_writes (r := main_arg1) (by decide)).trans
      ((StableHlo.after_of_writes_sub hostOps0_1 _ hostOps0_1_writes (r := main_arg1) (by decide)).trans
        (StableHlo.after_of_writes_sub hostOps0 _ hostOps0_writes (r := main_arg1) (by decide))))

/-- The first launch reads the first weight matrix as launched. -/
theorem host_W1 : VE0 m ρ c main_arg2 = (m ((c.tc : Thread nD τ).loc main_arg2)) :=
  ((StableHlo.after_of_writes_sub hostOps0_2 _ hostOps0_2_writes (r := main_arg2) (by decide)).trans
      ((StableHlo.after_of_writes_sub hostOps0_1 _ hostOps0_1_writes (r := main_arg2) (by decide)).trans
        (StableHlo.after_of_writes_sub hostOps0 _ hostOps0_writes (r := main_arg2) (by decide))))

/-- The first launch's bias row reads the first bias at its feature. -/
theorem host_b1 : ∀ q : Fin 128, (VE0 m ρ c main_v44 : S1x128.Idx → EReal) (ix2 (0 : Fin 1) q) = (m ((c.tc : Thread nD τ).loc main_arg3)) (ix1 q) :=
  fun q => (congrFun (pre0_v44 (W0 m ρ c)) (ix2 (0 : Fin 1) q)).trans (shapeCast_a_1a_apply _ _ (0 : Fin 1) q)

/-- The second launch reads, as its table, what the first launch wrote. -/
theorem host_hid : VE1 m ρ c main_v45 = (dat0 (VE0 m ρ) c).arrAt 5 cfg0.N :=
  (StableHlo.after_of_writes_sub hostOps1 _ hostOps1_writes (r := main_v45) (by decide)).trans (W4_arr m ρ c 5)

/-- The second launch's aggregated input: the message-passing operator at the first launch's output. -/
theorem host_msg2 : (VE1 m ρ c main_v58 : S100000x128.Idx → EReal) = Cert.HostOps.msgOp (m ((c.tc : Thread nD τ).loc main_arg0)) (VE1 m ρ c main_v45) := by
  have h1 : W4 m ρ c (Proc.devRef .tc main_v1) = Cert.HostOps.rowIdx (m ((c.tc : Thread nD τ).loc main_arg0)) :=
    (W4_of_ne m ρ c main_v1 (by decide)).trans (pre0_v1 (W0 m ρ c))
  have h3 : W4 m ρ c (Proc.devRef .tc main_v3) = Cert.HostOps.colIdx (m ((c.tc : Thread nD τ).loc main_arg0)) :=
    (W4_of_ne m ρ c main_v3 (by decide)).trans (pre0_v3 (W0 m ρ c))
  have h28 : W4 m ρ c (Proc.devRef .tc main_v28) = Cert.HostOps.edgeW (m ((c.tc : Thread nD τ).loc main_arg0)) :=
    (W4_of_ne m ρ c main_v28 (by decide)).trans (pre0_v28 (W0 m ρ c))
  have h45 : W4 m ρ c (Proc.devRef .tc main_v45) = VE1 m ρ c main_v45 :=
    (StableHlo.after_of_writes_sub hostOps1 _ hostOps1_writes (r := main_v45) (by decide)).symm
  exact (post1_v58 (W4 m ρ c) _ _ _ _ h1 h3 h28 h45).trans (Cert.HostOps.msgOp_eq_msgFrom _ _).symm

/-- The second launch reads the self-weight column the first launch read. -/
theorem host_self1 : VE1 m ρ c main_v30 = VE0 m ρ c main_v30 :=
  (StableHlo.after_of_writes_sub hostOps1 _ hostOps1_writes (r := main_v30) (by decide)).trans
    ((W4_arr m ρ c 2).trans (((dat0 (VE0 m ρ) c).arrAt_in 2 rfl _).trans (A_eq0 (VE0 m ρ) c 2)))

/-- The second launch reads the second weight matrix as launched. -/
theorem host_W2 : VE1 m ρ c main_arg4 = (m ((c.tc : Thread nD τ).loc main_arg4)) :=
  (StableHlo.after_of_writes_sub hostOps1 _ hostOps1_writes (r := main_arg4) (by decide)).trans
    ((W4_of_ne m ρ c main_arg4 (by decide)).trans
    ((StableHlo.after_of_writes_sub hostOps0_2 _ hostOps0_2_writes (r := main_arg4) (by decide)).trans
      ((StableHlo.after_of_writes_sub hostOps0_1 _ hostOps0_1_writes (r := main_arg4) (by decide)).trans
        (StableHlo.after_of_writes_sub hostOps0 _ hostOps0_writes (r := main_arg4) (by decide)))))

/-- The second launch's bias row reads the second bias at its class. -/
theorem host_b2 : ∀ j : Fin 40, (VE1 m ρ c main_v59 : S1x40.Idx → EReal) (ix2 (0 : Fin 1) j) = (m ((c.tc : Thread nD τ).loc main_arg5)) (ix1 j) := by
  intro j
  have h5 : W4 m ρ c (Proc.devRef .tc main_arg5) = (m ((c.tc : Thread nD τ).loc main_arg5)) :=
    (W4_of_ne m ρ c main_arg5 (by decide)).trans
    ((StableHlo.after_of_writes_sub hostOps0_2 _ hostOps0_2_writes (r := main_arg5) (by decide)).trans
      ((StableHlo.after_of_writes_sub hostOps0_1 _ hostOps0_1_writes (r := main_arg5) (by decide)).trans
        (StableHlo.after_of_writes_sub hostOps0 _ hostOps0_writes (r := main_arg5) (by decide))))
  exact (congrFun (post1_v59 (W4 m ρ c) _ h5) (ix2 (0 : Fin 1) j)).trans (shapeCast_a_1a_apply _ _ (0 : Fin 1) j)

/-- The returned vector reads the second launch's [1, 40] output at its class. -/
theorem host_out : ∀ j : Fin 40, (W7 m ρ c (Proc.devRef .tc main_v61) : S40.Idx → EReal) (ix1 j) = (dat1 (VE1 m ρ) c).arrAt 5 cfg1.N (ix2 (0 : Fin 1) j) :=
  fun j => (congrFun (post2_v61 (W6 m ρ c) _ (W6_arr m ρ c 5)) (ix1 j)).trans (shapeCast_1a_a_apply _ _ j)

end Cert.KernelIdeal.HandValue

end
-- ==== Proof.SumTiles.lean ====
/-
  A sum over the 100000 nodes is the sum over the 20 tiles of 5000 consecutive nodes of the sums within each tile:
  node `5000 · t + r` is row `r` of tile `t`.
-/
import Mathlib.Data.Fintype.BigOperators
import Mathlib.Logic.Equiv.Fin.Basic

open scoped BigOperators

namespace Cert.SumTiles

/-- The sum over tiles of the sums over a tile's rows is the sum over all nodes. -/
theorem sum_tiles {M : Type*} [AddCommMonoid M] (f : Fin 100000 → M) :
    (∑ t : Fin 20, ∑ r : Fin 5000, f ⟨5000 * t.val + r.val, by have := t.isLt; have := r.isLt; omega⟩) = ∑ i : Fin 100000, f i := by
  rw [← Fintype.sum_prod_type (f := fun p : Fin 20 × Fin 5000 => f ⟨5000 * p.1.val + p.2.val, by have := p.1.isLt; have := p.2.isLt; omega⟩)]
  rw [← Equiv.sum_comp (finProdFinEquiv : Fin 20 × Fin 5000 ≃ Fin (20 * 5000)) (fun i : Fin (20 * 5000) => f ⟨i.val, i.isLt⟩)]
  refine Finset.sum_congr rfl fun p _ => ?_
  refine congrArg f (Fin.ext ?_)
  show 5000 * p.1.val + p.2.val = (finProdFinEquiv p).val
  rw [finProdFinEquiv_apply_val]
  omega

end Cert.SumTiles
-- ==== Proof.KiRegion0Value.lean ====
/- REGION 0's output array after the region, at the ideal values and entry by entry, as a function of the region's five
   input arrays as it finds them: the layer's value on one tile of rows read at an entry (the two broadcasts, the
   product into the zero accumulator, the bias and the cut at zero), each grid point's write-back as its block of one
   whole-array function, the blocks' cover of the array by rows, and the array after the last write-back. -/
import proofs.«122011_j58411555225966_1_alg».proof.Proof.KiRegion0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The layer's value on one tile of rows, read at an entry -/

/-- A column `[5000, 1]` broadcast along the lanes reads, at `(p, q)`, the column's entry of row `p`. -/
theorem bcast_col_apply (x : FVec Ideal S5000x1 .f32) (p : Fin 5000) (q : Fin 128) :
    broadcastTo S5000x128 x broadcasts_S5000x1_S5000x128 (ix2 p q) = x (ix2 p (0 : Fin 1)) := by
  refine broadcastTo_apply x broadcasts_S5000x1_S5000x128 (ix2 p q) (ix2 p (0 : Fin 1)) fun a => ?_
  match a with
  | ⟨0, _⟩ => rfl
  | ⟨1, _⟩ => rfl

/-- A row `[1, 128]` broadcast down the rows reads, at `(p, q)`, the row's entry of lane `q`. -/
theorem bcast_row_apply (x : FVec Ideal S1x128 .f32) (p : Fin 5000) (q : Fin 128) :
    broadcastTo S5000x128 x broadcasts_S1x128_S5000x128 (ix2 p q) = x (ix2 (0 : Fin 1) q) :=
  broadcastTo_1b_ab_apply x broadcasts_S1x128_S5000x128 p q

theorem lhs_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at `(p, q)`: row `p` of the left factor against column `q` of the right. -/
theorem matmul_zero_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- THE LAYER ON A TILE, at row `p` and lane `q`: the aggregated message plus the self weight times the feature, row `p`
    of that against column `q` of the matrix, plus the bias of lane `q`, cut below at zero. -/
theorem pay_apply (x0 x1 : FVec Ideal S5000x128 .f32) (x2 : FVec Ideal S5000x1 .f32) (x3 : FVec Ideal S128x128 .f32)
    (x4 : FVec Ideal S1x128 .f32) (p : Fin 5000) (q : Fin 128) :
    k0_pay1 (F := Ideal) x0 x2 x1 x3 x4 (ix2 p q)
      = max ((∑ k : Fin 128, (x0 (ix2 p k) + x2 (ix2 p (0 : Fin 1)) * x1 (ix2 p k)) * x3 (ix2 k q)) + x4 (ix2 (0 : Fin 1) q)) 0 := by
  unfold k0_pay1
  simp only [shapeCast_self]
  rw [maximumf_apply, addf_apply, broadcast_apply, matmul_zero_apply, bcast_row_apply]
  simp only [addf_apply, mulf_apply, bcast_col_apply]
  exact congrArg (max _) Ideal.ofBits_zero_f32

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- What the output array ends holding, as one function of the five input arrays, entry by entry: at node `i` and lane
    `l`, the aggregated message plus the self weight times the feature, node `i`'s row of that against column `l` of the
    matrix, plus the bias of lane `l`, cut below at zero. -/
abbrev G0 (a0 a1 : S100000x128.Idx → EReal) (a2 : S100000x1.Idx → EReal) (a3 : S128x128.Idx → EReal) (a4 : S1x128.Idx → EReal) :
    S100000x128.Idx → EReal := fun j =>
  max ((∑ k : Fin 128, (a0 (ix2 (j 0) k) + a2 (ix2 (j 0) (0 : Fin 1)) * a1 (ix2 (j 0) k)) * a3 (ix2 k (j 1))) + a4 (ix2 (0 : Fin 1) (j 1))) 0

/-- The layer on a tile whose rows are rows of the arrays: where each loaded block's entries are the arrays' entries at
    node `i 0` (the three row-tiled blocks) and the two weight blocks are the weight arrays, the tile's value at `(p, q)` is
    `G0` of the arrays at `i`. -/
theorem point_eq (a0 a1 : S100000x128.Idx → EReal) (a2 : S100000x1.Idx → EReal) (a3 : S128x128.Idx → EReal) (a4 : S1x128.Idx → EReal)
    (x0 x1 : FVec Ideal S5000x128 .f32) (x2 : FVec Ideal S5000x1 .f32) (x3 : FVec Ideal S128x128 .f32) (x4 : FVec Ideal S1x128 .f32)
    (p : Fin 5000) (q : Fin 128) (n : Fin 100000) (l : Fin 128)
    (h0 : ∀ k : Fin 128, x0 (ix2 p k) = a0 (ix2 n k)) (h1 : ∀ k : Fin 128, x1 (ix2 p k) = a1 (ix2 n k))
    (h2 : x2 (ix2 p (0 : Fin 1)) = a2 (ix2 n (0 : Fin 1))) (h3 : ∀ k : Fin 128, x3 (ix2 k q) = a3 (ix2 k l))
    (h4 : x4 (ix2 (0 : Fin 1) q) = a4 (ix2 (0 : Fin 1) l)) :
    k0_pay1 (F := Ideal) x0 x2 x1 x3 x4 (ix2 p q) = G0 a0 a1 a2 a3 a4 (ix2 n l) := by
  rw [pay_apply]
  show _ = max ((∑ k : Fin 128, (a0 (ix2 n k) + a2 (ix2 n (0 : Fin 1)) * a1 (ix2 n k)) * a3 (ix2 k l)) + a4 (ix2 (0 : Fin 1) l)) 0
  rw [h2, h4]
  simp only [h0, h1, h3]

/-- The printed index maps, decided over the grid: the three row-tiled inputs move with the output, whose block index is
    the point's number on the rows and zero on the lanes; the two weight windows stay at block zero. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- WHAT POINT `t` WRITES BACK is block `t` of `G0` of the input arrays as the region finds them. -/
theorem flushed0_5_eq (c : Dev nD) (t : Fin cfg0.N) :
    (dat0 (F := Ideal) V c).flushed 5 t
      = ((cfg0.win 5).blk t).view.read (Elt Ideal) (G0 (V c main_v43) (V c main_arg1) (V c main_v30) (V c main_arg2) (V c main_v44)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S5000x1) hz, View.ld_unit_zero (S := S128x128) hz, View.ld_unit_zero (S := S1x128) hz]
  obtain ⟨e50, e51, e00, e01, e10, e11, e20, e21, e30, e31, e40, e41⟩ := idx_facts t
  funext j
  obtain ⟨p, q, rfl⟩ : ∃ (p : Fin 5000) (q : Fin 128), j = ix2 p q := ⟨j 0, j 1, eq_ix2 j⟩
  have hN : cfg0.N = 20 := N_0
  have ht : t.val < 20 := by have := t.isLt; omega
  have hn : t.val * 5000 + p.val < 100000 := by have := p.isLt; omega
  have hemb : ((cfg0.win 5).blk t).view.emb (ix2 p q) = ix2 (⟨t.val * 5000 + p.val, hn⟩ : Fin 100000) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  show k0_pay1 (F := Ideal) (iblk0 V c 0 t) (iblk0 V c 2 t) (iblk0 V c 1 t) (iblk0 V c 3 t) (iblk0 V c 4 t) (ix2 p q)
    = G0 (V c main_v43) (V c main_arg1) (V c main_v30) (V c main_arg2) (V c main_v44) (((cfg0.win 5).blk t).view.emb (ix2 p q))
  rw [hemb]
  refine point_eq (V c main_v43) (V c main_arg1) (V c main_v30) (V c main_arg2) (V c main_v44)
    (iblk0 V c 0 t) (iblk0 V c 1 t) (iblk0 V c 2 t) (iblk0 V c 3 t) (iblk0 V c 4 t) p q ⟨t.val * 5000 + p.val, hn⟩ q ?_ ?_ ?_ ?_ ?_
  · intro k
    show V c main_v43 (((cfg0.win 0).blk t).view.emb (ix2 p k)) = V c main_v43 (ix2 (⟨t.val * 5000 + p.val, hn⟩ : Fin 100000) k)
    refine congrArg (V c main_v43) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k
    show V c main_arg1 (((cfg0.win 1).blk t).view.emb (ix2 p k)) = V c main_arg1 (ix2 (⟨t.val * 5000 + p.val, hn⟩ : Fin 100000) k)
    refine congrArg (V c main_arg1) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  · show V c main_v30 (((cfg0.win 2).blk t).view.emb (ix2 p (0 : Fin 1))) = V c main_v30 (ix2 (⟨t.val * 5000 + p.val, hn⟩ : Fin 100000) (0 : Fin 1))
    refine congrArg (V c main_v30) (funext fun a => Fin.ext ?_)
    match a with
    | ⟨0, _⟩ => show win0_2.index t (0 : Fin 2) * 5000 + 1 * p.val = t.val * 5000 + p.val; rw [e20]; omega
    | ⟨1, _⟩ => show win0_2.index t (1 : Fin 2) * 1 + 1 * 0 = 0; rw [e21]
  · intro k
    show V c main_arg2 (((cfg0.win 3).blk t).view.emb (ix2 k q)) = V c main_arg2 (ix2 k q)
    refine congrArg (V c main_arg2) (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  · show V c main_v44 (((cfg0.win 4).blk t).view.emb (ix2 (0 : Fin 1) q)) = V c main_v44 (ix2 (0 : Fin 1) q)
    refine congrArg (V c main_v44) (funext fun a => Fin.ext ?_)
    match a with
    | ⟨0, _⟩ => show win0_4.index t (0 : Fin 2) * 1 + 1 * 0 = 0; rw [e40]
    | ⟨1, _⟩ => show win0_4.index t (1 : Fin 2) * 128 + 1 * q.val = q.val; rw [e41]; omega

/-- An index of the array is in point `t`'s block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v45).slice (win0_5.rect t)).set ↔ _
  rw [View.set_slice_whole, Rect.mem_set_unit]
  exact Iff.rfl

/-- Every node's row is in some point's block: node `i` in the block of point `i / 5000`, which the pipeline writes back. -/
theorem cover0_5_arr (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  have htN : (i 0).val / 5000 < cfg0.N := by rw [hN]; omega
  refine ⟨⟨(i 0).val / 5000, htN⟩, flush0_5 _, ?_⟩
  obtain ⟨e50, e51, -⟩ := idx_facts ⟨(i 0).val / 5000, htN⟩
  rw [mem_blk0_5]
  intro a
  match a with
  | ⟨0, _⟩ =>
    show win0_5.index ⟨(i 0).val / 5000, htN⟩ (0 : Fin 2) * 5000 ≤ (i 0).val ∧ (i 0).val < win0_5.index ⟨(i 0).val / 5000, htN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, htN⟩ (1 : Fin 2) * 128 ≤ (i 1).val ∧ (i 1).val < win0_5.index ⟨(i 0).val / 5000, htN⟩ (1 : Fin 2) * 128 + 128
    rw [e51]; omega

/-- The windows' arrays by name. -/
theorem arrRef0 : Pipeline.arrRef spec0 0 = main_v43 ∧ Pipeline.arrRef spec0 1 = main_arg1 ∧ Pipeline.arrRef spec0 2 = main_v30
    ∧ Pipeline.arrRef spec0 3 = main_arg2 ∧ Pipeline.arrRef spec0 4 = main_v44 ∧ Pipeline.arrRef spec0 5 = main_v45 :=
  ⟨rfl, rfl, rfl, rfl, rfl, rfl⟩

/-- THE OUTPUT ARRAY AFTER THE REGION is `G0` of the input arrays as the region finds them: every point writes its block of
    `G0` back, and the blocks cover the array. -/
theorem arr0_5_G (c : Dev nD) : (dat0 (F := Ideal) V c).arrAt 5 cfg0.N
    = G0 (V c main_v43) (V c main_arg1) (V c main_v30) (V c main_arg2) (V c main_v44) :=
  (dat0 (F := Ideal) V c).arrAt_eq_of_cover 5 (G0 (V c main_v43) (V c main_arg1) (V c main_v30) (V c main_arg2) (V c main_v44))
    (fun t _ => flushed0_5_eq V c t) cover0_5_arr

/-- The same, entry by entry, with the five input arrays named: at node `j 0` and lane `j 1` the aggregated message plus the
    self weight times the feature, that row against column `j 1` of the matrix, plus the bias, cut below at zero. -/
theorem arr0_5 (c : Dev nD) (a0 a1 : S100000x128.Idx → EReal) (a2 : S100000x1.Idx → EReal) (a3 : S128x128.Idx → EReal)
    (a4 : S1x128.Idx → EReal) (h0 : a0 = V c main_v43) (h1 : a1 = V c main_arg1) (h2 : a2 = V c main_v30)
    (h3 : a3 = V c main_arg2) (h4 : a4 = V c main_v44) :
    (dat0 (F := Ideal) V c).arrAt 5 cfg0.N
      = fun j : S100000x128.Idx => max ((∑ k : Fin 128, (a0 (ix2 (j 0) k) + a2 (ix2 (j 0) (0 : Fin 1)) * a1 (ix2 (j 0) k)) * a3 (ix2 k (j 1)))
          + a4 (ix2 (0 : Fin 1) (j 1))) 0 := by
  subst h0 h1 h2 h3 h4
  exact arr0_5_G V c

end Cert.KernelIdeal.HandValue

end
-- ==== Proof.KiRegion1Blocks.lean ====
/- REGION 1's input blocks as rows of its arrays: at grid point `t` the three row-tiled windows (the aggregated messages of
   the hidden features, the hidden features, the self weights) hold rows `5000·t … 5000·t + 4999` of their arrays, and the
   two weight windows (the second layer's matrix and its bias row) hold their whole arrays at every point. Each block's
   entry sits in the array, on each axis, at the block index times the block's extent plus its own coordinate; the block
   indices are decided once over the grid. -/
import proofs.«122011_j58411555225966_1_alg».proof.Proof.KiRegion1
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable {F : FTy → Type} [FloatOps F] [Named F]
variable (V : (c : Dev nD) → (b : Ref sig .tc) → Buf (Elt F) ((c : Thread nD τ).loc b))

/-- The windows' arrays by name. -/
theorem arrRef1 : Pipeline.arrRef spec1 0 = main_v58 ∧ Pipeline.arrRef spec1 1 = main_v45 ∧ Pipeline.arrRef spec1 2 = main_v30
    ∧ Pipeline.arrRef spec1 3 = main_arg4 ∧ Pipeline.arrRef spec1 4 = main_v59 ∧ Pipeline.arrRef spec1 5 = main_v60 :=
  ⟨rfl, rfl, rfl, rfl, rfl, rfl⟩

/-- Row `r` of tile `t` is a node: the grid has 20 points of 5000 rows. -/
theorem row1_lt (t : Fin cfg1.N) (r : Fin 5000) : 5000 * t.val + r.val < 100000 := by
  have hN : cfg1.N = 20 := N_1
  have ht := t.isLt
  have hr := r.isLt
  omega

/-- Row `r` of tile `t`, as a node. -/
abbrev row1 (t : Fin cfg1.N) (r : Fin 5000) : Fin 100000 := ⟨5000 * t.val + r.val, row1_lt t r⟩

/-- The printed index maps, decided over the grid: the three row-tiled inputs' block index is the point's number on the
    rows and zero on the lanes; the two weight windows stay at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Window 0's block at point `t`: rows `5000·t + r` of the aggregated messages. -/
theorem iblk1_0_apply (c : Dev nD) (t : Fin cfg1.N) (r : Fin 5000) (k : Fin 128) :
    iblk1 V c 0 t (ix2 r k) = V c main_v58 (ix2 (row1 t r) k) := by
  obtain ⟨e00, e01, -⟩ := idx_facts1 t
  show V c main_v58 (((cfg1.win 0).blk t).view.emb (ix2 r k)) = V c main_v58 (ix2 (row1 t r) k)
  refine congrArg (V c main_v58) (funext fun a => Fin.ext ?_)
  match a with
  | ⟨0, _⟩ => show win1_0.index t (0 : Fin 2) * 5000 + 1 * r.val = 5000 * t.val + r.val; rw [e00]; omega
  | ⟨1, _⟩ => show win1_0.index t (1 : Fin 2) * 128 + 1 * k.val = k.val; rw [e01]; omega

/-- Window 1's block at point `t`: rows `5000·t + r` of the hidden features. -/
theorem iblk1_1_apply (c : Dev nD) (t : Fin cfg1.N) (r : Fin 5000) (k : Fin 128) :
    iblk1 V c 1 t (ix2 r k) = V c main_v45 (ix2 (row1 t r) k) := by
  obtain ⟨-, -, e10, e11, -⟩ := idx_facts1 t
  show V c main_v45 (((cfg1.win 1).blk t).view.emb (ix2 r k)) = V c main_v45 (ix2 (row1 t r) k)
  refine congrArg (V c main_v45) (funext fun a => Fin.ext ?_)
  match a with
  | ⟨0, _⟩ => show win1_1.index t (0 : Fin 2) * 5000 + 1 * r.val = 5000 * t.val + r.val; rw [e10]; omega
  | ⟨1, _⟩ => show win1_1.index t (1 : Fin 2) * 128 + 1 * k.val = k.val; rw [e11]; omega

/-- Window 2's block at point `t`: entries `5000·t + r` of the self-weight column. -/
theorem iblk1_2_apply (c : Dev nD) (t : Fin cfg1.N) (r : Fin 5000) :
    iblk1 V c 2 t (ix2 r (0 : Fin 1)) = V c main_v30 (ix2 (row1 t r) (0 : Fin 1)) := by
  obtain ⟨-, -, -, -, e20, e21, -⟩ := idx_facts1 t
  show V c main_v30 (((cfg1.win 2).blk t).view.emb (ix2 r (0 : Fin 1))) = V c main_v30 (ix2 (row1 t r) (0 : Fin 1))
  refine congrArg (V c main_v30) (funext fun a => Fin.ext ?_)
  match a with
  | ⟨0, _⟩ => show win1_2.index t (0 : Fin 2) * 5000 + 1 * r.val = 5000 * t.val + r.val; rw [e20]; omega
  | ⟨1, _⟩ => show win1_2.index t (1 : Fin 2) * 1 + 1 * 0 = 0; rw [e21]

/-- Window 3's block at every point: the second layer's matrix, whole. -/
theorem iblk1_3_apply (c : Dev nD) (t : Fin cfg1.N) (k : Fin 128) (j : Fin 40) :
    iblk1 V c 3 t (ix2 k j) = V c main_arg4 (ix2 k j) := by
  obtain ⟨-, -, -, -, -, -, e30, e31, -⟩ := idx_facts1 t
  show V c main_arg4 (((cfg1.win 3).blk t).view.emb (ix2 k j)) = V c main_arg4 (ix2 k j)
  refine congrArg (V c main_arg4) (funext fun a => Fin.ext ?_)
  match a with
  | ⟨0, _⟩ => show win1_3.index t (0 : Fin 2) * 128 + 1 * k.val = k.val; rw [e30]; omega
  | ⟨1, _⟩ => show win1_3.index t (1 : Fin 2) * 40 + 1 * j.val = j.val; rw [e31]; omega

/-- Window 4's block at every point: the second layer's bias row, whole. -/
theorem iblk1_4_apply (c : Dev nD) (t : Fin cfg1.N) (j : Fin 40) :
    iblk1 V c 4 t (ix2 (0 : Fin 1) j) = V c main_v59 (ix2 (0 : Fin 1) j) := by
  obtain ⟨-, -, -, -, -, -, -, -, e40, e41⟩ := idx_facts1 t
  show V c main_v59 (((cfg1.win 4).blk t).view.emb (ix2 (0 : Fin 1) j)) = V c main_v59 (ix2 (0 : Fin 1) j)
  refine congrArg (V c main_v59) (funext fun a => Fin.ext ?_)
  match a with
  | ⟨0, _⟩ => show win1_4.index t (0 : Fin 2) * 1 + 1 * 0 = 0; rw [e40]
  | ⟨1, _⟩ => show win1_4.index t (1 : Fin 2) * 40 + 1 * j.val = j.val; rw [e41]; omega

end Cert.KernelIdeal.HandValue

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KiRegion1Pay.lean ====
import proofs.«122011_j58411555225966_1_alg».proof.Proof.KiRegion1
import proofs.«122011_j58411555225966_1_alg».proof.Proof.LibKeepdims
import proofs.«122011_j58411555225966_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-! # The second layer's payloads at an index, on the extended reals -/

/-- The sum of an `[a, b]` matrix along its columns is, at `j`, the sum over the rows `r` of the entries `(r, j)`. -/
theorem colSums_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- One tile's contribution to class `j`: the sum over the tile's 5000 rows of the second layer's output. -/
def tileSum (b0 b1 : FVec Ideal S5000x128 .f32) (b2 : FVec Ideal S5000x1 .f32) (b3 : FVec Ideal S128x40 .f32)
    (b4 : FVec Ideal S1x40 .f32) (j : Fin 40) : EReal :=
  ∑ r : Fin 5000, ((∑ k : Fin 128, (b0 (ix2 r k) + b2 (ix2 r (0 : Fin 1)) * b1 (ix2 r k)) * b3 (ix2 k j)) + b4 (ix2 (0 : Fin 1) j))

/-- The aggregate of one row: the message entry plus the self weight times the feature entry. -/
theorem comb_apply (v3 v7 : FVec Ideal S5000x128 .f32) (v5 : FVec Ideal S5000x1 .f32) (r : Fin 5000) (k : Fin 128) :
    addf v3 (mulf (broadcastTo S5000x128 v5 broadcasts_S5000x1_S5000x128) v7) (ix2 r k)
      = v3 (ix2 r k) + v5 (ix2 r (0 : Fin 1)) * v7 (ix2 r k) := by
  show v3 (ix2 r k) + broadcastTo S5000x128 v5 broadcasts_S5000x1_S5000x128 (ix2 r k) * v7 (ix2 r k) = _
  rw [Cert.LibKeepdims.broadcastTo_a1_ab_apply]

/-- The accumulator's update read at class `j`: the old entry plus the tile's contribution. -/
theorem pay2_apply (v3 : FVec Ideal S5000x128 .f32) (v5 : FVec Ideal S5000x1 .f32) (v7 : FVec Ideal S5000x128 .f32)
    (v12 : FVec Ideal S128x40 .f32) (v14 v18 : FVec Ideal S1x40 .f32) (j : Fin 40) :
    k1_pay2 (F := Ideal) v3 v5 v7 v12 v14 v18 (ix2 (0 : Fin 1) j) = v18 (ix2 (0 : Fin 1) j) + tileSum v3 v7 v5 v12 v14 j := by
  unfold k1_pay2
  simp only [shapeCast_self]
  show v18 (ix2 (0 : Fin 1) j) + shapeCast S1x40 _ shapeCasts_S40_S1x40 (ix2 (0 : Fin 1) j) = _
  rw [shapeCast_a_1a_apply]
  refine congrArg (fun z : EReal => v18 (ix2 (0 : Fin 1) j) + z) ?_
  refine (colSums_apply (a := 5000) (b := 40) _ _ reduces_S5000x40_S40 _ _ j).trans ?_
  unfold tileSum
  refine Finset.sum_congr rfl fun r _ => ?_
  show FloatOps.matmul _ none _ v12 _ (ix2 r j) + broadcastTo S5000x40 v14 broadcasts_S1x40_S5000x40 (ix2 r j) = _
  rw [broadcastTo_1b_ab_apply]
  refine congrArg (fun z : EReal => z + v14 (ix2 (0 : Fin 1) j)) ?_
  refine (Idealize.ShloMosaic.PlainDot.matmul_zero_apply 5000 128 40 none _ v12 r j).trans ?_
  exact Finset.sum_congr rfl fun k _ => congrArg (fun z : EReal => z * v12 (ix2 k j)) (comb_apply v3 v7 v5 r k)

/-- The cleared accumulator is zero. -/
theorem pay1_apply (j : Fin 40) : k1_pay1 (F := Ideal) (ix2 (0 : Fin 1) j) = 0 := by
  unfold k1_pay1
  rw [shapeCast_self]
  show Ideal.ofBits .f32 0x00000000#32 = 0
  exact Ideal.ofBits_zero_f32

/-- The kernel's named reciprocal is the rational 1/100000. -/
theorem inv_n : Named.named (F := Ideal) Cert.KernelIdeal.κ "inv_100000" (φ := .f32) 0x3727C5AC#32 = ((1 / 100000 : ℝ) : EReal) :=
  IdealRules.named_const.ideal_named_scalar _ _ _ _ rfl

/-- The output block: the accumulator scaled by 1/100000. -/
theorem pay3_apply (v28 : FVec Ideal S1x40 .f32) (j : Fin 40) :
    k1_pay3 (F := Ideal) v28 (ix2 (0 : Fin 1) j) = v28 (ix2 (0 : Fin 1) j) * ((1 / 100000 : ℝ) : EReal) := by
  unfold k1_pay3
  show v28 (ix2 (0 : Fin 1) j) * Named.named (F := Ideal) Cert.KernelIdeal.κ "inv_100000" (φ := .f32) 0x3727C5AC#32 = _
  rw [inv_n]

end Cert.KernelIdeal.HandValue

end
-- ==== Proof.KiRegion1Pieces.lean ====
/- What each case of the second layer's body leaves, as the body's payloads of the loaded blocks. The first grid point
   zeroes the accumulator and then adds its tile's column sums onto it; every later point adds its tile's column sums onto
   what the accumulator held; the last point also stores the accumulator, scaled, into the output block. Each buffer is
   loaded and stored whole, so the last store into a buffer is what it holds, a load of a buffer reads what the block or the
   earlier store put there, and a load of the accumulator after a store reads that store. -/
import proofs.«122011_j58411555225966_1_alg».proof.Proof.KiRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The zero offsets, however spelt. -/
theorem hz1 : (![0, 0] : Fin 2 → Nat) = fun _ => 0 := funext fun a => by fin_cases a <;> rfl

/-- THE FIRST POINT leaves in the accumulator its tile's contribution added onto the zero row it has just stored there. -/
theorem sout1_A_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : cond1_0 i) (hc1 : ¬cond1_1 i) (x0 : Vec F S5000x128 .f32) (x1 : Vec F S5000x128 .f32) (x2 : Vec F S5000x1 .f32) (x3 : Vec F S128x40 .f32) (x4 : Vec F S1x40 .f32) :
    sout1_A c i arg1 harg1 arg2 harg2 arg3 harg3 arg4 harg4 arg5 harg5 arg6 harg6 arg7 harg7 hc0 hc1 x0 x1 x2 x3 x4 = k1_pay2 x0 x2 x1 x3 x4 (k1_pay1 (F := F)) := by
  unfold sout1_A
  rw [View.read_writes_eq_canon _ _ _ (scover1_A c i arg1 harg1 arg2 harg2 arg3 harg3 arg4 harg4 arg5 harg5 arg6 harg6 arg7 harg7 hc0 hc1 x0 x1 x2 x3 x4)]
  unfold kernelRun1_A
  dsimp only
  sl_unfold_words
  refine (View.canon_cons_unit_zero (S := S1x40) hz1 _ _ _).trans ?_
  simp only [View.readAt_eq_ld, harg1.read_unread, harg2.read_unread, harg3.read_unread, harg4.read_unread, harg5.read_unread, harg7.read_unread,
    View.readCov_unit_zero (S := S1x40) _ hz1, View.ld_unit_zero (S := S5000x128) hz1, View.ld_unit_zero (S := S5000x1) hz1, View.ld_unit_zero (S := S128x40) hz1,
    View.ld_unit_zero (S := S1x40) hz1]

/-- A MIDDLE POINT leaves in the accumulator its tile's contribution added onto what the accumulator held. -/
theorem sout1_B_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : ¬cond1_1 i) (x0 : Vec F S5000x128 .f32) (x1 : Vec F S5000x128 .f32) (x2 : Vec F S5000x1 .f32) (x3 : Vec F S128x40 .f32) (x4 : Vec F S1x40 .f32) (xs0 : Vec F S1x40 .f32) :
    sout1_B c i arg1 harg1 arg2 harg2 arg3 harg3 arg4 harg4 arg5 harg5 arg6 harg6 arg7 harg7 hc0 hc1 x0 x1 x2 x3 x4 xs0 = k1_pay2 x0 x2 x1 x3 x4 xs0 := by
  unfold sout1_B
  rw [View.read_writes_eq_canon _ _ _ (scover1_B c i arg1 harg1 arg2 harg2 arg3 harg3 arg4 harg4 arg5 harg5 arg6 harg6 arg7 harg7 hc0 hc1 x0 x1 x2 x3 x4 xs0)]
  unfold kernelRun1_B
  dsimp only
  sl_unfold_words
  refine (View.canon_cons_unit_zero (S := S1x40) hz1 _ _ _).trans ?_
  simp only [View.readAt_eq_ld, harg1.read_unread, harg2.read_unread, harg3.read_unread, harg4.read_unread, harg5.read_unread, harg7.read_unread,
    View.readCov_unit_zero (S := S1x40) _ hz1, View.ld_unit_zero (S := S5000x128) hz1, View.ld_unit_zero (S := S5000x1) hz1, View.ld_unit_zero (S := S128x40) hz1,
    View.ld_unit_zero (S := S1x40) hz1]

/-- THE LAST POINT leaves in the accumulator the same, -/
theorem sout1_C_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) :
    sout1_C c i arg1 harg1 arg2 harg2 arg3 harg3 arg4 harg4 arg5 harg5 arg6 harg6 arg7 harg7 hc0 hc1 x0 x1 x2 x3 x4 xs0 = k1_pay2 x0 x2 x1 x3 x4 xs0 := by
  unfold sout1_C
  rw [View.read_writes_eq_canon _ _ _ (scover1_C c i arg1 harg1 arg2 harg2 arg3 harg3 arg4 harg4 arg5 harg5 arg6 harg6 arg7 harg7 hc0 hc1 x0 x1 x2 x3 x4 xs0)]
  unfold kernelRun1_C
  dsimp only
  sl_unfold_words
  refine (View.canon_cons_unit_zero (S := S1x40) hz1 _ _ _).trans ?_
  simp only [View.readAt_eq_ld, harg1.read_unread, harg2.read_unread, harg3.read_unread, harg4.read_unread, harg5.read_unread, harg7.read_unread,
    View.readCov_unit_zero (S := S1x40) _ hz1, View.ld_unit_zero (S := S5000x128) hz1, View.ld_unit_zero (S := S5000x1) hz1, View.ld_unit_zero (S := S128x40) hz1,
    View.ld_unit_zero (S := S1x40) hz1]

/-- and in the output block that accumulator, read back and scaled. -/
theorem out1_C_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S1x40 .f32) (harg6 : arg6.IsWhole) (arg7 : Memref sig .tc .vmem S1x40 .f32) (harg7 : arg7.IsWhole) (hc0 : ¬cond1_0 i) (hc1 : cond1_1 i) (x0 : Vec F S5000x128 .f32) (x1 : Vec F S5000x128 .f32) (x2 : Vec F S5000x1 .f32) (x3 : Vec F S128x40 .f32) (x4 : Vec F S1x40 .f32) (xs0 : Vec F S1x40 .f32) :
    out1_C c i arg1 harg1 arg2 harg2 arg3 harg3 arg4 harg4 arg5 harg5 arg6 harg6 arg7 harg7 hc0 hc1 x0 x1 x2 x3 x4 xs0 = k1_pay3 (k1_pay2 x0 x2 x1 x3 x4 xs0) := by
  unfold out1_C
  rw [View.read_writes_eq_canon _ _ _ (cover1_C c i arg1 harg1 arg2 harg2 arg3 harg3 arg4 harg4 arg5 harg5 arg6 harg6 arg7 harg7 hc0 hc1 x0 x1 x2 x3 x4 xs0)]
  unfold kernelRun1_C
  dsimp only
  sl_unfold_words
  refine (View.canon_cons_unit_zero (S := S1x40) hz1 _ _ _).trans ?_
  simp only [View.readAt_eq_ld, harg1.read_unread, harg2.read_unread, harg3.read_unread, harg4.read_unread, harg5.read_unread, harg7.read_unread,
    View.readCov_unit_zero (S := S1x40) _ hz1, View.ld_unit_zero (S := S5000x128) hz1, View.ld_unit_zero (S := S5000x1) hz1, View.ld_unit_zero (S := S128x40) hz1,
    View.ld_unit_zero (S := S1x40) hz1]

end Cert.KernelIdeal.Hand

end
-- ==== Proof.KiRegion1Acc.lean ====
import proofs.«122011_j58411555225966_1_alg».proof.Proof.KiRegion1Pay
import proofs.«122011_j58411555225966_1_alg».proof.Proof.KiRegion1Pieces

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-! # The accumulator after each grid point is the running sum of the tiles' contributions -/

variable (V : (c : Dev nD) → (b : Ref sig .tc) → Buf (Elt Ideal) ((c : Thread nD τ).loc b))

/-- Tile `n`'s contribution to class `j`, from the blocks the launch finds at point `n` (zero off the grid). -/
def tileAt (c : Dev nD) (n : ℕ) (j : Fin 40) : EReal :=
  if h : n < cfg1.N then
    tileSum (iblk1 V c 0 ⟨n, h⟩) (iblk1 V c 1 ⟨n, h⟩) (iblk1 V c 2 ⟨n, h⟩) (iblk1 V c 3 ⟨n, h⟩) (iblk1 V c 4 ⟨n, h⟩) j
  else 0

theorem tileAt_of_lt (c : Dev nD) (n : ℕ) (hn : n < cfg1.N) (j : Fin 40) :
    tileAt V c n j
      = tileSum (iblk1 V c 0 ⟨n, hn⟩) (iblk1 V c 1 ⟨n, hn⟩) (iblk1 V c 2 ⟨n, hn⟩) (iblk1 V c 3 ⟨n, hn⟩) (iblk1 V c 4 ⟨n, hn⟩) j :=
  dif_pos hn

/-- After point `n` the accumulator holds, at class `j`, the sum of the contributions of tiles `0 … n`: the first point
    starts from the cleared accumulator, every later point adds its tile to what the point before left. -/
theorem accAt_val (c : Dev nD) : ∀ (n : ℕ) (hn : n < cfg1.N) (j : Fin 40),
    accAt V c n hn (ix2 (0 : Fin 1) j) = ∑ t ∈ Finset.range (n + 1), tileAt V c t j
  | 0, hn, j => by
    have e := accAt_A V c ⟨0, hn⟩ (Nat.zero_mod _) (by show ¬ (0 : ℕ) % 20 = 19; omega)
    have e' : accAt V c 0 hn (ix2 (0 : Fin 1) j)
        = k1_pay1 (F := Ideal) (ix2 (0 : Fin 1) j) + tileSum (iblk1 V c 0 ⟨0, hn⟩) (iblk1 V c 1 ⟨0, hn⟩) (iblk1 V c 2 ⟨0, hn⟩) (iblk1 V c 3 ⟨0, hn⟩) (iblk1 V c 4 ⟨0, hn⟩) j := by
      rw [show accAt V c 0 hn = _ from e, sout1_A_eq]; exact pay2_apply _ _ _ _ _ _ j
    rw [e', pay1_apply, zero_add, Finset.sum_range_one, tileAt_of_lt V c 0 hn j]
  | n + 1, hn, j => by
    have hN : n + 1 < 20 := lt_of_lt_of_eq hn N_1
    have ih := accAt_val c n (Nat.lt_of_succ_lt hn) j
    have h0 : ¬ (n + 1) % 20 = 0 := by omega
    have e' : accAt V c (n + 1) hn (ix2 (0 : Fin 1) j)
        = accAt V c n (Nat.lt_of_succ_lt hn) (ix2 (0 : Fin 1) j)
          + tileSum (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) j := by
      by_cases h1 : (n + 1) % 20 = 19
      · rw [show accAt V c (n + 1) hn = _ from accAt_C V c ⟨n + 1, hn⟩ h0 h1, sout1_C_eq]; exact pay2_apply _ _ _ _ _ _ j
      · rw [show accAt V c (n + 1) hn = _ from accAt_B V c ⟨n + 1, hn⟩ h0 h1, sout1_B_eq]; exact pay2_apply _ _ _ _ _ _ j
    rw [e', ih, Finset.sum_range_succ _ (n + 1), tileAt_of_lt V c (n + 1) hn j]

end Cert.KernelIdeal.HandValue

end
-- ==== Proof.KiRegion1Value.lean ====
/- REGION 1's output array after the region, at the ideal values: the mean over the nodes, class by class. The output
   window is written back at the last grid point only, and its one block is the whole array; what that point leaves in the
   block is the accumulator — the sum of all twenty tiles' contributions — scaled by 1/100000. -/
import proofs.«122011_j58411555225966_1_alg».proof.Proof.KiRegion1Acc
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the output array ends holding: per class, the twenty tiles' contributions added up and scaled by 1/100000. -/
abbrev G1 (c : Dev nD) : S1x40.Idx → EReal := fun i =>
  (∑ t ∈ Finset.range 20, tileAt V c t (i 1)) * ((1 / 100000 : ℝ) : EReal)

/-- The output window's printed index map, decided over the grid: block zero at every point. -/
theorem idx_facts1_5 : ∀ t : Fin cfg1.N, win1_5.index t (0 : Fin 2) = 0 ∧ win1_5.index t (1 : Fin 2) = 0 :=
  (by decide +kernel : ∀ t : Fin grid1.N, _)

/-- WHAT THE LAST POINT WRITES BACK is `G1`, read through the window's one block. -/
theorem flushed1_5_eq (c : Dev nD) (t : Fin cfg1.N) (hf : (cfg1.win 5).flush t = true) :
    (dat1 (F := Ideal) V c).flushed 5 t = ((cfg1.win 5).blk t).view.read (Elt Ideal) (G1 V c) := by
  have hN : cfg1.N = 20 := N_1
  obtain ⟨n, hn⟩ := t
  have hn19 : n = 19 := by
    have h1 : n % 20 = 19 := (flush1_5 ⟨n, hn⟩).mp hf
    omega
  subst hn19
  have h0 : ¬ (19 : ℕ) % 20 = 0 := by decide
  have h1 : (19 : ℕ) % 20 = 19 := by decide
  obtain ⟨e0, e1⟩ := idx_facts1_5 ⟨19, hn⟩
  show (cfg1.win 5).cut (grid1.coords ⟨19, hn⟩) ((dat1 (F := Ideal) V c).after 5 ⟨19, hn⟩) = _
  rw [after1_5, outAt_C V c ⟨19, hn⟩ h0 h1, out1_C_eq]
  funext j
  obtain ⟨z, q, rfl⟩ : ∃ (z : Fin 1) (q : Fin 40), j = ix2 z q := ⟨j 0, j 1, eq_ix2 j⟩
  obtain rfl : z = 0 := Subsingleton.elim _ _
  have hemb : ((cfg1.win 5).blk ⟨19, hn⟩).view.emb (ix2 (0 : Fin 1) q) = ix2 (0 : Fin 1) q := by
    funext a; apply Fin.ext
    match a with
    | ⟨0, _⟩ => show win1_5.index ⟨19, hn⟩ (0 : Fin 2) * 1 + 1 * 0 = 0; rw [e0]
    | ⟨1, _⟩ => show win1_5.index ⟨19, hn⟩ (1 : Fin 2) * 40 + 1 * q.val = q.val; rw [e1]; omega
  have h18 : 18 < cfg1.N := by omega
  show k1_pay3 (F := Ideal) (k1_pay2 (F := Ideal) (iblk1 V c 0 ⟨19, hn⟩) (iblk1 V c 2 ⟨19, hn⟩) (iblk1 V c 1 ⟨19, hn⟩) (iblk1 V c 3 ⟨19, hn⟩)
      (iblk1 V c 4 ⟨19, hn⟩) (accAt V c 18 h18)) (ix2 (0 : Fin 1) q)
    = G1 V c (((cfg1.win 5).blk ⟨19, hn⟩).view.emb (ix2 (0 : Fin 1) q))
  rw [hemb]
  show _ = (∑ t ∈ Finset.range 20, tileAt V c t q) * ((1 / 100000 : ℝ) : EReal)
  refine (pay3_apply _ q).trans ?_
  refine congrArg (fun z : EReal => z * ((1 / 100000 : ℝ) : EReal)) ?_
  refine (pay2_apply _ _ _ _ _ _ q).trans ?_
  have hs : ∑ t ∈ Finset.range 20, tileAt V c t q = (∑ t ∈ Finset.range 19, tileAt V c t q) + tileAt V c 19 q :=
    Finset.sum_range_succ _ 19
  rw [hs, ← accAt_val V c 18 h18 q, tileAt_of_lt V c 19 hn q]

/-- An index of the array is in point `t`'s block iff each coordinate is in the block's range on its axis. -/
theorem mem_blk1_5 (t : Fin cfg1.N) (i : S1x40.Idx) :
    i ∈ ((cfg1.win 5).blk t).view.set ↔ ∀ a : Fin 2, win1_5.index t a * S1x40.size a ≤ (i a).val ∧ (i a).val < win1_5.index t a * S1x40.size a + S1x40.size a := by
  show i ∈ ((View.whole main_v60).slice (win1_5.rect t)).set ↔ _
  rw [View.set_slice_whole, Rect.mem_set_unit]
  exact Iff.rfl

/-- The last point's block is the whole array, and the pipeline writes it back. -/
theorem cover1_5_arr (i : S1x40.Idx) :
    ∃ t : Fin cfg1.N, (cfg1.win 5).flush t = true ∧ i ∈ ((cfg1.win 5).blk t).view.set := by
  have hN : cfg1.N = 20 := N_1
  have h19 : 19 < cfg1.N := by omega
  have hi0 : (i 0).val < 1 := (i 0).isLt
  have hi1 : (i 1).val < 40 := (i 1).isLt
  refine ⟨⟨19, h19⟩, (flush1_5 ⟨19, h19⟩).mpr (show (19 : ℕ) % 20 = 19 from rfl), ?_⟩
  obtain ⟨e0, e1⟩ := idx_facts1_5 ⟨19, h19⟩
  rw [mem_blk1_5]
  intro a
  match a with
  | ⟨0, _⟩ =>
    show win1_5.index ⟨19, h19⟩ (0 : Fin 2) * 1 ≤ (i 0).val ∧ (i 0).val < win1_5.index ⟨19, h19⟩ (0 : Fin 2) * 1 + 1
    rw [e0]; omega
  | ⟨1, _⟩ =>
    show win1_5.index ⟨19, h19⟩ (1 : Fin 2) * 40 ≤ (i 1).val ∧ (i 1).val < win1_5.index ⟨19, h19⟩ (1 : Fin 2) * 40 + 40
    rw [e1]; omega

/-- THE OUTPUT ARRAY AFTER THE REGION is `G1`: the one write-back, at the last point, writes `G1` over the whole array. -/
theorem arr1_5 (c : Dev nD) : (dat1 (F := Ideal) V c).arrAt 5 cfg1.N = G1 V c :=
  (dat1 (F := Ideal) V c).arrAt_eq_of_cover 5 (G1 V c) (fun t hf => flushed1_5_eq V c t hf) cover1_5_arr

end Cert.KernelIdeal.HandValue

end
-- ==== Proof.KiSpec.lean ====
import proofs.«122011_j58411555225966_1_alg».proof.Proof.KiRun
import proofs.«122011_j58411555225966_1_alg».proof.Proof.KiHost
import proofs.«122011_j58411555225966_1_alg».proof.Proof.SumTiles
import proofs.«122011_j58411555225966_1_alg».proof.Proof.KiRegion0Value
import proofs.«122011_j58411555225966_1_alg».proof.Proof.KiRegion1Blocks
import proofs.«122011_j58411555225966_1_alg».proof.Proof.KiRegion1Value
import proofs.«122011_j58411555225966_1_alg».proof.Proof.HostOps
import proofs.«122011_j58411555225966_1_alg».proof.Proof.Gen.ReferenceIdeal
import proofs.«122011_j58411555225966_1_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-! # The kernel computes the specification

The first launch leaves the hidden table; the host recomputes the messages from it; the second launch sums the second
layer's output tile by tile and scales by 1/100000; the twenty tiles of 5000 rows are the 100000 nodes. -/

/-- The first launch's output block formula over typed arrays is the specification's hidden table. -/
theorem G0_eq_hidden (msg : Cert.Spec.Table → Cert.Spec.Table) (sw : Fin 100000 → EReal) (x : Cert.Spec.Table)
    (W1 : S128x128.Idx → EReal) (b1 : Fin 128 → EReal)
    (a0 a1 : S100000x128.Idx → EReal) (a2 : S100000x1.Idx → EReal) (a3 : S128x128.Idx → EReal) (a4 : S1x128.Idx → EReal)
    (h0 : a0 = msg x) (h1 : a1 = x) (h2 : ∀ i : Fin 100000, a2 (ix2 i (0 : Fin 1)) = sw i) (h3 : a3 = W1)
    (h4 : ∀ q : Fin 128, a4 (ix2 (0 : Fin 1) q) = b1 q) :
    G0 a0 a1 a2 a3 a4 = Cert.Spec.hidden msg sw x W1 b1 := by
  subst h0 h1 h3
  funext j
  obtain ⟨i, q, rfl⟩ : ∃ (i : Fin 100000) (q : Fin 128), j = ix2 i q := ⟨j 0, j 1, eq_ix2 j⟩
  show max ((∑ k : Fin 128, (msg a1 (ix2 i k) + a2 (ix2 i (0 : Fin 1)) * a1 (ix2 i k)) * a3 (ix2 k q)) + a4 (ix2 (0 : Fin 1) q)) 0 = _
  rw [h2, h4]; rfl

/-- One tile's contribution, its blocks read off the whole arrays, is the sum of the second layer's output over the
    tile's rows. -/
theorem tile_eq (msg : Cert.Spec.Table → Cert.Spec.Table) (sw : Fin 100000 → EReal) (h : Cert.Spec.Table)
    (W2 : S128x40.Idx → EReal) (b2 : Fin 40 → EReal)
    (b0 b1 : FVec Ideal S5000x128 .f32) (b2' : FVec Ideal S5000x1 .f32) (b3 : FVec Ideal S128x40 .f32) (b4 : FVec Ideal S1x40 .f32)
    (row : Fin 5000 → Fin 100000)
    (h0 : ∀ r k, b0 (ix2 r k) = msg h (ix2 (row r) k)) (h1 : ∀ r k, b1 (ix2 r k) = h (ix2 (row r) k))
    (h2 : ∀ r, b2' (ix2 r (0 : Fin 1)) = sw (row r)) (h3 : ∀ k j, b3 (ix2 k j) = W2 (ix2 k j))
    (h4 : ∀ j, b4 (ix2 (0 : Fin 1) j) = b2 j) (j : Fin 40) :
    tileSum b0 b1 b2' b3 b4 j = ∑ r : Fin 5000, Cert.Spec.logitAt msg sw h W2 b2 (row r) j := by
  unfold tileSum Cert.Spec.logitAt
  simp only [h0, h1, h2, h3, h4]

variable (m : (ℓ : Loc nD τ sig) → Buf (Elt Ideal) ℓ) (ρ : Dev nD → PrngReg)

/-- The result buffer after the run, as a function of the launch memory: the specification at the arguments. -/
theorem kernel_result (c : Dev nD) :
    (W7 m ρ c (Proc.devRef .tc main_v61) : S40.Idx → EReal)
      = Cert.Spec.result (Cert.HostOps.msgOp (m ((c.tc : Thread nD τ).loc main_arg0))) (Cert.HostOps.selfW (m ((c.tc : Thread nD τ).loc main_arg0)))
          (m ((c.tc : Thread nD τ).loc main_arg1)) (m ((c.tc : Thread nD τ).loc main_arg2)) (fun q => m ((c.tc : Thread nD τ).loc main_arg3) (ix1 q))
          (m ((c.tc : Thread nD τ).loc main_arg4)) (fun j => m ((c.tc : Thread nD τ).loc main_arg5) (ix1 j)) := by
  -- the hidden table
  have hH : (VE1 m ρ c main_v45 : S100000x128.Idx → EReal)
      = Cert.Spec.hidden (Cert.HostOps.msgOp (m ((c.tc : Thread nD τ).loc main_arg0))) (Cert.HostOps.selfW (m ((c.tc : Thread nD τ).loc main_arg0)))
          (m ((c.tc : Thread nD τ).loc main_arg1)) (m ((c.tc : Thread nD τ).loc main_arg2)) (fun q => m ((c.tc : Thread nD τ).loc main_arg3) (ix1 q)) := by
    rw [host_hid m ρ c, arr0_5_G (VE0 m ρ) c]
    exact G0_eq_hidden _ _ _ _ _ _ _ _ _ _ (host_msg1 m ρ c) (host_x0 m ρ c) (host_self0 m ρ c) (host_W1 m ρ c) (host_b1 m ρ c)
  funext j'
  obtain ⟨j, rfl⟩ : ∃ j : Fin 40, j' = ix1 j := ⟨j' 0, eq_ix1 j'⟩
  rw [host_out m ρ c j, arr1_5 (VE1 m ρ) c]
  show (∑ t ∈ Finset.range 20, tileAt (VE1 m ρ) c t j) * ((1 / 100000 : ℝ) : EReal) = _
  unfold Cert.Spec.result
  refine congrArg (fun z : EReal => z * ((1 / 100000 : ℝ) : EReal)) ?_
  rw [Finset.sum_range]
  refine Eq.trans ?_ (Cert.SumTiles.sum_tiles (fun i : Fin 100000 =>
    Cert.Spec.logitAt (Cert.HostOps.msgOp (m ((c.tc : Thread nD τ).loc main_arg0))) (Cert.HostOps.selfW (m ((c.tc : Thread nD τ).loc main_arg0)))
      (Cert.Spec.hidden (Cert.HostOps.msgOp (m ((c.tc : Thread nD τ).loc main_arg0))) (Cert.HostOps.selfW (m ((c.tc : Thread nD τ).loc main_arg0)))
        (m ((c.tc : Thread nD τ).loc main_arg1)) (m ((c.tc : Thread nD τ).loc main_arg2)) (fun q => m ((c.tc : Thread nD τ).loc main_arg3) (ix1 q)))
      (m ((c.tc : Thread nD τ).loc main_arg4)) (fun j => m ((c.tc : Thread nD τ).loc main_arg5) (ix1 j)) i j))
  refine Finset.sum_congr rfl fun t _ => ?_
  have ht : t.val < cfg1.N := lt_of_lt_of_eq t.isLt N_1.symm
  rw [tileAt_of_lt (VE1 m ρ) c t.val ht j]
  refine tile_eq _ _ _ _ _ _ _ _ _ _ (fun r => ⟨5000 * t.val + r.val, by have := t.isLt; have := r.isLt; omega⟩)
    (fun r k => ?_) (fun r k => ?_) (fun r => ?_) (fun k j => ?_) (fun j => ?_) j
  · exact (iblk1_0_apply (VE1 m ρ) c ⟨t.val, ht⟩ r k).trans (by rw [host_msg2 m ρ c, hH])
  · exact (iblk1_1_apply (VE1 m ρ) c ⟨t.val, ht⟩ r k).trans (by rw [hH])
  · exact (iblk1_2_apply (VE1 m ρ) c ⟨t.val, ht⟩ r).trans (by rw [host_self1 m ρ c]; exact host_self0 m ρ c _)
  · exact (iblk1_3_apply (VE1 m ρ) c ⟨t.val, ht⟩ k j).trans (by rw [host_W2 m ρ c])
  · exact (iblk1_4_apply (VE1 m ρ) c ⟨t.val, ht⟩ j).trans (host_b2 m ρ c j)

end Cert.KernelIdeal.HandValue

end
-- ==== Proof.lean ====
/-
  The kernel is a two-layer graph convolution whose dense half runs in two launches — per tile of 5000 nodes: add the
  self-weighted features to the aggregated messages, project, add the bias; the first launch clamps at zero and writes
  the hidden table, the second sums its output over the tile's rows into an accumulator carried across the 20 tiles and
  at the last tile writes the accumulator times 1/100000 — while the sparse half (degrees, edge weights, gather and
  scatter-add of the messages) is host code, the same in the reference.  The reference does the dense half on whole
  arrays and takes the mean over the 100000 nodes by a division.

  Both are the specification `Cert.Spec.result` of the argument arrays, with the message operator and the self weights
  kept as the shared host terms: sums on the extended reals regroup freely (tile by tile, then over the tiles), and the
  division by 100000 is the product with the named 1/100000.  No finiteness is used.

  Frames: the host stretches thread every unscoped buffer's contents; each launch is entered from those contents and left
  with its output array at what its write-backs leave; the second launch's invariant carries the accumulator at the running
  sum.  The frames use no property of the float instance, so they hold of the word-level program as of the idealized one.
-/
import proofs.«122011_j58411555225966_1_alg».proof.Defs
import proofs.«122011_j58411555225966_1_alg».proof.Proof.Gen.Kernel
import proofs.«122011_j58411555225966_1_alg».proof.Proof.Gen.KernelIdeal
import proofs.«122011_j58411555225966_1_alg».proof.Proof.Gen.ReferenceIdeal
import proofs.«122011_j58411555225966_1_alg».proof.Proof.Gen.Pre_finite_inputs
import proofs.«122011_j58411555225966_1_alg».proof.Proof.KRun
import proofs.«122011_j58411555225966_1_alg».proof.Proof.KiRun
import proofs.«122011_j58411555225966_1_alg».proof.Proof.RefSpec
import proofs.«122011_j58411555225966_1_alg».proof.Proof.KiSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the kernel's literal 9.99999974e-6 is read as the rational 1/100000. -/
theorem preserves : Cert.preserves_Kernel_KernelIdeal :=
  IdealRules.named_const.statement Cert.KernelIdeal.κ "inv_100000" .f32 0x3727C5AC#32 ((1 / 100000 : ℝ) : EReal) rfl

/-- From memories agreeing on the arguments both programs end at the specification of those arguments. -/
theorem algebraic : Cert.algebraic_KernelIdeal_ReferenceIdeal := by
  intro m ρ m' ρ' _ hagree
  refine ⟨fun c => Cert.KernelIdeal.Hand.W7 m ρ c (Proc.devRef .tc Cert.KernelIdeal.main_v61), Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.RefSpec.ref_result m' c, (hagree c).1, (hagree c).2.1, (hagree c).2.2.1, (hagree c).2.2.2.1, (hagree c).2.2.2.2.1, (hagree c).2.2.2.2.2]
  exact (Cert.KernelIdeal.HandValue.kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
